-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048 : Shape := ⟨2, ![2, 2048]⟩
abbrev S32x2048x64 : Shape := ⟨3, ![32, 2048, 64]⟩
abbrev S2x1x2048 : Shape := ⟨3, ![2, 1, 2048]⟩
abbrev S1x2048x64 : Shape := ⟨3, ![1, 2048, 64]⟩
abbrev S1x1024x64 : Shape := ⟨3, ![1, 1024, 64]⟩
abbrev S1x1x1024 : Shape := ⟨3, ![1, 1, 1024]⟩
abbrev S2048x1 : Shape := ⟨2, ![2048, 1]⟩
abbrev S2048x64 : Shape := ⟨2, ![2048, 64]⟩
abbrev S1024x64 : Shape := ⟨2, ![1024, 64]⟩
abbrev S2048x1024 : Shape := ⟨2, ![2048, 1024]⟩
abbrev S1024 : Shape := ⟨1, ![1024]⟩
abbrev S1x1024 : Shape := ⟨2, ![1, 1024]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .i32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x1x2048, .i32⟩
  | .hbm, ⟨8, _⟩ => ⟨S32x2048x64, .f32⟩
  | .hbm, ⟨9, _⟩ => ⟨S2x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1x1024, .i32⟩
  | .local _ .vmem, ⟨7, _⟩ => ⟨S1x1x1024, .i32⟩
  | .local _ .vmem, ⟨8, _⟩ => ⟨S1x2048x64, .f32⟩
  | .local _ .vmem, ⟨9, _⟩ => ⟨S1x2048x64, .f32⟩
  | .local _ .vmem, ⟨10, _⟩ => ⟨S2048x1, .f32⟩
  | .local _ .vmem, ⟨11, _⟩ => ⟨S2048x1, .f32⟩
  | .local _ .vmem, ⟨12, _⟩ => ⟨S2048x64, .f32⟩
  | .local _ .vmem, ⟨13, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v53 : BitVec 1 := Scalar.cmpi .eq arg1 c1_i32
  let v54 : BitVec 32 := Scalar.extui v53
  let c0_i32_31 : BitVec 32 := 0#32
  let v55 : BitVec 1 := Scalar.cmpi .ne v54 c0_i32_31
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x16x2048x64_S32x2048x64 : S2x16x2048x64.ShapeCasts S32x2048x64
  shapeCasts_S2x2048_S2x1x2048 : S2x2048.ShapeCasts S2x1x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  shapeCasts_S2048x64_S1x2048x64 : S2048x64.ShapeCasts S1x2048x64
  shapeCasts_S32x2048x64_S2x16x2048x64 : S32x2048x64.ShapeCasts S2x16x2048x64
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x2048x64.size a
  hwx0_1 : ∀ i : grid0.Coords, EltTy.bits .f32 = 32 ∨ (Rect.block (s := S32x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x2048.size a
  hwx0_3 : ∀ i : grid0.Coords, EltTy.bits .i32 = 32 ∨ (Rect.block (s := S2x1x2048) S1x1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S32x2048x64.size a
  hwx0_4 : ∀ i : grid0.Coords, EltTy.bits .f32 = 32 ∨ (Rect.block (s := S32x2048x64) S1x2048x64.size (cc0_transform_4 i) (hinb0_4 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S2x2048 : Shape := ⟨2, ![2, 2048]⟩
abbrev S2x16x2048x2048 : Shape := ⟨4, ![2, 16, 2048, 2048]⟩
abbrev S_ : Shape := ⟨0, ![]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .i32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x2048, .f32⟩
  | .hbm, ⟨10, _⟩ => ⟨S_, .f32⟩
  | .hbm, ⟨11, _⟩ => ⟨S2x2048, .f32⟩
  | .hbm, ⟨12, _⟩ => ⟨S2x2048, .f32⟩
  | .hbm, ⟨13, _⟩ => ⟨S2x1x1x2048, .f32⟩
  | .hbm, ⟨14, _⟩ => ⟨S_, .f32⟩
  | .hbm, ⟨15, _⟩ => ⟨S2x1x1x2048, .f32⟩
  | .hbm, ⟨16, _⟩ => ⟨S2x1x1x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x2048 : S_.BroadcastsInDim S2x2048 (![] : Fin 0 → Fin S2x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What each grid point leaves in the carried scratch buffers and in the output block, read back as pure terms of the
  point's input blocks and of the state the point before left: the online-softmax recurrence of one batch-head,
  at any float instance.
-/
import proofs.«137208_j5927054868632_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The online-softmax state a point leaves, as terms over the body's payloads

The body keeps, per query row, a running maximum `m`, a running denominator `l`, a running numerator `acc` (one per
output column) and the query block cached once per batch-head. With `q` the cached query block, `k`, `v` the point's key
and value blocks, `mk` its mask block and `mOld`, `lOld`, `accOld` the state before the point, the body leaves
`mNew = max mOld (rowmax s)`, `lNew = exp (mOld - mNew) * lOld + rowsum (exp (s - mNew))` and
`accNew = exp (mOld - mNew) * accOld + exp (s - mNew) · v`, where `s` is the masked, scaled score tile. -/

/-- The new running maximum. -/
abbrev mNew (q : Vec F S2048x64 .bf16) (k : Vec F S1x1024x64 .f32) (mk : Vec F S1x1x1024 .i32) (mOld : Vec F S2048x1 .f32) :
    Vec F S2048x1 .f32 := k0_pay3 (k0_pay11 q k mk mOld)
/-- The new running denominator. -/
abbrev lNew (q : Vec F S2048x64 .bf16) (k : Vec F S1x1024x64 .f32) (mk : Vec F S1x1x1024 .i32) (mOld lOld : Vec F S2048x1 .f32) :
    Vec F S2048x1 .f32 := k0_pay1 (k0_pay12 q k mk mOld mOld) (k0_pay13 q k mk mOld) lOld
/-- The new running numerator. -/
abbrev accNew (q : Vec F S2048x64 .bf16) (k v : Vec F S1x1024x64 .f32) (mk : Vec F S1x1x1024 .i32) (mOld : Vec F S2048x1 .f32)
    (accOld : Vec F S2048x64 .f32) : Vec F S2048x64 .f32 :=
  k0_pay2 (k0_pay9 v) (k0_pay12 q k mk mOld mOld) (k0_pay13 q k mk mOld) accOld

/-! ## A batch-head's first point: the state is reset, the query block cached, the first key tile folded in -/

/-- After the first point the running maximum is the first tile's, folded into the reset value. -/
theorem mA (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i)
    (x0 : Vec F S1x2048x64 .f32) (x1 : Vec F S1x1024x64 .f32) (x2 : Vec F S1x1024x64 .f32) (x3 : Vec F S1x1x1024 .i32) :
    sout0_A_0 c i arg2 harg2 arg3 harg3 arg4 harg4 arg5 harg5 arg6 harg6 arg7 harg7 arg8 harg8 arg9 harg9 arg10 harg10 hc0 hc1 x0 x1 x2 x3 = mNew (k0_pay8 x0) x1 x3 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- After the first point the running denominator is the first tile's, folded into the reset value. -/
theorem lA (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i)
    (x0 : Vec F S1x2048x64 .f32) (x1 : Vec F S1x1024x64 .f32) (x2 : Vec F S1x1024x64 .f32) (x3 : Vec F S1x1x1024 .i32) :
    sout0_A_1 c i arg2 harg2 arg3 harg3 arg4 harg4 arg5 harg5 arg6 harg6 arg7 harg7 arg8 harg8 arg9 harg9 arg10 harg10 hc0 hc1 x0 x1 x2 x3 = lNew (k0_pay8 x0) x1 x3 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- After the first point the running numerator is the first tile's, folded into the reset value. -/
theorem accA (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i)
    (x0 : Vec F S1x2048x64 .f32) (x1 : Vec F S1x1024x64 .f32) (x2 : Vec F S1x1024x64 .f32) (x3 : Vec F S1x1x1024 .i32) :
    sout0_A_2 c i arg2 harg2 arg3 harg3 arg4 harg4 arg5 harg5 arg6 harg6 arg7 harg7 arg8 harg8 arg9 harg9 arg10 harg10 hc0 hc1 x0 x1 x2 x3 = accNew (k0_pay8 x0) x1 x2 x3 (k0_pay5 (F := F)) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x64) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- The first point caches the query block. -/
theorem qA (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : cond0_0 i) (hc1 : ¬cond0_1 i)
    (x0 : Vec F S1x2048x64 .f32) (x1 : Vec F S1x1024x64 .f32) (x2 : Vec F S1x1024x64 .f32) (x3 : Vec F S1x1x1024 .i32) :
    sout0_A_3 c i arg2 harg2 arg3 harg3 arg4 harg4 arg5 harg5 arg6 harg6 arg7 harg7 arg8 harg8 arg9 harg9 arg10 harg10 hc0 hc1 x0 x1 x2 x3 = k0_pay8 x0 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero (S := S2048x64) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-! ## A batch-head's second point: the second key tile is folded into the carried state, and the quotient stored -/

/-- After the second point the running maximum is the second tile's folded into the carried one. -/
theorem mB (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i)
    (x0 : Vec F S1x2048x64 .f32) (x1 : Vec F S1x1024x64 .f32) (x2 : Vec F S1x1024x64 .f32) (x3 : Vec F S1x1x1024 .i32)
    (xs0 : Vec F S2048x1 .f32) (xs1 : Vec F S2048x1 .f32) (xs2 : Vec F S2048x64 .f32) (xs3 : Vec F S2048x64 .bf16) :
    sout0_B_0 c i arg2 harg2 arg3 harg3 arg4 harg4 arg5 harg5 arg6 harg6 arg7 harg7 arg8 harg8 arg9 harg9 arg10 harg10 hc0 hc1 x0 x1 x2 x3 xs0 xs1 xs2 xs3 = mNew xs3 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero (S := S2048x1) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- After the second point the running denominator is the second tile's folded into the carried one. -/
theorem lB (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i)
    (x0 : Vec F S1x2048x64 .f32) (x1 : Vec F S1x1024x64 .f32) (x2 : Vec F S1x1024x64 .f32) (x3 : Vec F S1x1x1024 .i32)
    (xs0 : Vec F S2048x1 .f32) (xs1 : Vec F S2048x1 .f32) (xs2 : Vec F S2048x64 .f32) (xs3 : Vec F S2048x64 .bf16) :
    sout0_B_1 c i arg2 harg2 arg3 harg3 arg4 harg4 arg5 harg5 arg6 harg6 arg7 harg7 arg8 harg8 arg9 harg9 arg10 harg10 hc0 hc1 x0 x1 x2 x3 xs0 xs1 xs2 xs3 = lNew xs3 x1 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero (S := S2048x1) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- After the second point the running numerator is the second tile's folded into the carried one. -/
theorem accB (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i)
    (x0 : Vec F S1x2048x64 .f32) (x1 : Vec F S1x1024x64 .f32) (x2 : Vec F S1x1024x64 .f32) (x3 : Vec F S1x1x1024 .i32)
    (xs0 : Vec F S2048x1 .f32) (xs1 : Vec F S2048x1 .f32) (xs2 : Vec F S2048x64 .f32) (xs3 : Vec F S2048x64 .bf16) :
    sout0_B_2 c i arg2 harg2 arg3 harg3 arg4 harg4 arg5 harg5 arg6 harg6 arg7 harg7 arg8 harg8 arg9 harg9 arg10 harg10 hc0 hc1 x0 x1 x2 x3 xs0 xs1 xs2 xs3 = accNew xs3 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero (S := S2048x64) hz2]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

/-- The second point stores the quotient of the final numerator by the final denominator into the output block. -/
theorem outB (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S1x1024x64 .f32) (harg4 : arg4.IsWhole) (arg5 : Memref sig .tc .vmem S1x1x1024 .i32) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (arg10 : Memref sig .tc .vmem S2048x64 .bf16) (harg10 : arg10.IsWhole) (hc0 : ¬cond0_0 i) (hc1 : cond0_1 i)
    (x0 : Vec F S1x2048x64 .f32) (x1 : Vec F S1x1024x64 .f32) (x2 : Vec F S1x1024x64 .f32) (x3 : Vec F S1x1x1024 .i32)
    (xs0 : Vec F S2048x1 .f32) (xs1 : Vec F S2048x1 .f32) (xs2 : Vec F S2048x64 .f32) (xs3 : Vec F S2048x64 .bf16) :
    out0_B_4 c i arg2 harg2 arg3 harg3 arg4 harg4 arg5 harg5 arg6 harg6 arg7 harg7 arg8 harg8 arg9 harg9 arg10 harg10 hc0 hc1 x0 x1 x2 x3 xs0 xs1 xs2 xs3 = k0_pay4 (accNew xs3 x1 x2 x3 xs0 xs2) (lNew xs3 x1 x3 xs0 xs1) := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero (S := S1x2048x64) hz3]
  simp only [View.readCov_unit_zero (S := S2048x64) _ hz2, View.readCov_unit_zero (S := S2048x1) _ hz2,
    View.readAt_eq_ld, harg2.read_unread, harg3.read_unread, harg4.read_unread, harg5.read_unread, harg6.read_unread,
    harg7.read_unread, harg8.read_unread, harg9.read_unread, harg10.read_unread,
    View.ld_unit_zero (S := S1x2048x64) hz3, View.ld_unit_zero (S := S1x1024x64) hz3, View.ld_unit_zero (S := S1x1x1024) hz3,
    View.ld_unit_zero (S := S2048x1) hz2, View.ld_unit_zero (S := S2048x64) hz2]

end Cert.KernelIdeal.Pieces

end
-- ==== Proof.Blocks.lean ====
/-
  From grid points to the output array. The grid visits each batch-head `bh` at two consecutive points: the even point
  `2·bh` resets the running state, caches the query block and folds the first key tile in; the odd point `2·bh + 1` folds
  the second key tile into the state the even point left, divides, and stores the quotient into the output block, which
  is then written back to rows `bh` of the output array. So the output array, batch-head by batch-head, is that quotient.
-/
import proofs.«137208_j5927054868632_2_alg».proof.Proof.Pieces
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ) (ρ : Dev nD → PrngReg)

theorem N64 : cfg0.N = 64 := N_0

/-- The point before `t` (the point itself at the first one). -/
abbrev prev (t : Fin cfg0.N) : Fin cfg0.N := ⟨t.val - 1, Nat.lt_of_le_of_lt (Nat.sub_le _ _) t.isLt⟩

/-! ## The state an even point leaves -/

/-- The cached query block. -/
def stQ (c : Dev nD) (s : Fin cfg0.N) : Vec F S2048x64 .bf16 := k0_pay8 (iblk m c 0 s)
/-- The running maximum after the first tile. -/
def stM (c : Dev nD) (s : Fin cfg0.N) : Vec F S2048x1 .f32 :=
  mNew (stQ m c s) (iblk m c 1 s) (iblk m c 3 s) (k0_pay5 (F := F))
/-- The running denominator after the first tile. -/
def stL (c : Dev nD) (s : Fin cfg0.N) : Vec F S2048x1 .f32 :=
  lNew (stQ m c s) (iblk m c 1 s) (iblk m c 3 s) (k0_pay5 (F := F)) (k0_pay6 (F := F))
/-- The running numerator after the first tile. -/
def stAcc (c : Dev nD) (s : Fin cfg0.N) : Vec F S2048x64 .f32 :=
  accNew (stQ m c s) (iblk m c 1 s) (iblk m c 2 s) (iblk m c 3 s) (k0_pay5 (F := F)) (k0_pay7 (F := F))

/-- What the odd point `t` stores into the output block, from the state the even point `s` left. -/
def outAt (c : Dev nD) (s t : Fin cfg0.N) : Vec F S1x2048x64 .f32 :=
  k0_pay4 (accNew (stQ m c s) (iblk m c 1 t) (iblk m c 2 t) (iblk m c 3 t) (stM m c s) (stAcc m c s))
    (lNew (stQ m c s) (iblk m c 1 t) (iblk m c 3 t) (stM m c s) (stL m c s))

/-- After an even point the first carried scratch holds the first tile's running maximum. -/
theorem even_m (c : Dev nD) (t : Fin cfg0.N) (h0 : t.val % 2 = 0) :
    (outsAt0 m c t.val t.isLt).2.1 = stM m c t := by
  have h1 : ¬t.val % 2 = 1 := by omega
  rw [outsAt0_A m c t h0 h1]
  dsimp only
  exact mA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After an even point the second carried scratch holds the first tile's running denominator. -/
theorem even_l (c : Dev nD) (t : Fin cfg0.N) (h0 : t.val % 2 = 0) :
    (outsAt0 m c t.val t.isLt).2.2.1 = stL m c t := by
  have h1 : ¬t.val % 2 = 1 := by omega
  rw [outsAt0_A m c t h0 h1]
  dsimp only
  exact lA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After an even point the third carried scratch holds the first tile's running numerator. -/
theorem even_acc (c : Dev nD) (t : Fin cfg0.N) (h0 : t.val % 2 = 0) :
    (outsAt0 m c t.val t.isLt).2.2.2.1 = stAcc m c t := by
  have h1 : ¬t.val % 2 = 1 := by omega
  rw [outsAt0_A m c t h0 h1]
  dsimp only
  exact accA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After an even point the fourth carried scratch holds the cached query block. -/
theorem even_q (c : Dev nD) (t : Fin cfg0.N) (h0 : t.val % 2 = 0) :
    (outsAt0 m c t.val t.isLt).2.2.2.2 = stQ m c t := by
  have h1 : ¬t.val % 2 = 1 := by omega
  rw [outsAt0_A m c t h0 h1]
  dsimp only
  exact qA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

/-- After an odd point the output block holds the quotient built on the state the point before left. -/
theorem outs_odd (c : Dev nD) (t : Fin cfg0.N) (h1 : t.val % 2 = 1) :
    (outsAt0 m c t.val t.isLt).1 = outAt m c (prev t) t := by
  have h0 : ¬t.val % 2 = 0 := by omega
  have hp : (prev t).val % 2 = 0 := by show (t.val - 1) % 2 = 0; omega
  have e0 : (outsAt0 m c (t.val - 1) (Nat.lt_of_le_of_lt (Nat.sub_le _ _) t.isLt)).2.1 = stM m c (prev t) := even_m m c (prev t) hp
  have e1 : (outsAt0 m c (t.val - 1) (Nat.lt_of_le_of_lt (Nat.sub_le _ _) t.isLt)).2.2.1 = stL m c (prev t) := even_l m c (prev t) hp
  have e2 : (outsAt0 m c (t.val - 1) (Nat.lt_of_le_of_lt (Nat.sub_le _ _) t.isLt)).2.2.2.1 = stAcc m c (prev t) := even_acc m c (prev t) hp
  have e3 : (outsAt0 m c (t.val - 1) (Nat.lt_of_le_of_lt (Nat.sub_le _ _) t.isLt)).2.2.2.2 = stQ m c (prev t) := even_q m c (prev t) hp
  rw [outsAt0_B m c t h0 h1]
  dsimp only
  rw [e0, e1, e2, e3]
  exact outB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (stM m c (prev t)) (stL m c (prev t)) (stAcc m c (prev t)) (stQ m c (prev t))

/-! ## The output array -/

/-- The even point of batch-head `bh`. -/
abbrev tA (bh : Fin 32) : Fin cfg0.N := ⟨2 * bh.val, by have := N64; omega⟩
/-- The odd point of batch-head `bh`. -/
abbrev tB (bh : Fin 32) : Fin cfg0.N := ⟨2 * bh.val + 1, by have := N64; omega⟩

/-- The output array as one function of the input blocks: rows `bh` hold what batch-head `bh`'s odd point stored. -/
def G (c : Dev nD) : S32x2048x64.Idx → Elt F .f32 :=
  fun i => outAt m c (tA (i 0)) (tB (i 0)) (ix3 0 (i 1) (i 2))

/-- The output window's block index at point `t` is `(t / 2, 0, 0)`: decided over the grid. -/
theorem idx4 : ∀ t : Fin cfg0.N, win0_4.index t (0 : Fin 3) = t.val / 2 ∧ win0_4.index t (1 : Fin 3) = 0
    ∧ win0_4.index t (2 : Fin 3) = 0 :=
  (by decide +kernel : ∀ t : Fin grid0.N, _)

/-- What an odd point writes back is its block of `G`. -/
theorem flushed_eq (c : Dev nD) (t : Fin cfg0.N) (hf : (cfg0.win 4).flush t = true) :
    (dats m 0 c).flushed 4 t = ((cfg0.win 4).blk t).view.read (Elt F) (G m c) := by
  have h1 : t.val % 2 = 1 := (flush0_4 t).mp hf
  have hN := N64
  have ht := t.isLt
  show (cfg0.win 4).cut (grid0.coords t) ((dats m 0 c).after 4 t) = _
  rw [after0_4, outs_odd m c t h1]
  obtain ⟨e0, e1, e2⟩ := idx4 t
  funext y
  rw [View.read_apply]
  show outAt m c (prev t) t y = G m c (((cfg0.win 4).blk t).view.emb y)
  unfold G
  have hy0 : (y 0).val < 1 := (y 0).isLt
  have hy1 : (y 1).val < 2048 := (y 1).isLt
  have hy2 : (y 2).val < 64 := (y 2).isLt
  have c0 : ((((cfg0.win 4).blk t).view.emb y) 0).val = win0_4.index t (0 : Fin 3) * 1 + 1 * (y 0).val := rfl
  have c1 : ((((cfg0.win 4).blk t).view.emb y) 1).val = win0_4.index t (1 : Fin 3) * 2048 + 1 * (y 1).val := rfl
  have c2 : ((((cfg0.win 4).blk t).view.emb y) 2).val = win0_4.index t (2 : Fin 3) * 64 + 1 * (y 2).val := rfl
  have key : ∀ (s' t' : Fin cfg0.N) (y' : S1x2048x64.Idx), s' = prev t → t' = t → y' = y →
      outAt m c (prev t) t y = outAt m c s' t' y' := by rintro _ _ _ rfl rfl rfl; rfl
  refine key _ _ _ (Fin.ext ?_) (Fin.ext ?_) (funext fun a => Fin.ext ?_)
  · show 2 * ((((cfg0.win 4).blk t).view.emb y) 0).val = t.val - 1
    rw [c0, e0]; omega
  · show 2 * ((((cfg0.win 4).blk t).view.emb y) 0).val + 1 = t.val
    rw [c0, e0]; omega
  · match a with
    | ⟨0, _⟩ => show (0 : Nat) = (y 0).val; omega
    | ⟨1, _⟩ => show ((((cfg0.win 4).blk t).view.emb y) 1).val = (y 1).val; rw [c1, e1]; omega
    | ⟨2, _⟩ => show ((((cfg0.win 4).blk t).view.emb y) 2).val = (y 2).val; rw [c2, e2]; omega

/-- An index of the output array is in point `t`'s block iff each coordinate is in the block's range on its axis. -/
theorem mem_blk4 (t : Fin cfg0.N) (i : S32x2048x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v4).slice (win0_4.rect t)).set ↔ _
  rw [View.set_slice_whole, Rect.mem_set_unit]
  exact Iff.rfl

/-- Every index of the output array is written back by the odd point of its batch-head. -/
theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  refine ⟨tB (i 0), (flush0_4 _).mpr (by show (2 * (i 0).val + 1) % 2 = 1; omega), ?_⟩
  rw [mem_blk4]
  obtain ⟨e0, e1, e2⟩ := idx4 (tB (i 0))
  have hv : (tB (i 0)).val = 2 * (i 0).val + 1 := rfl
  intro a
  match a with
  | ⟨0, _⟩ => show win0_4.index (tB (i 0)) (0 : Fin 3) * 1 ≤ (i 0).val ∧ (i 0).val < win0_4.index (tB (i 0)) (0 : Fin 3) * 1 + 1
              rw [e0, hv]; omega
  | ⟨1, _⟩ => show win0_4.index (tB (i 0)) (1 : Fin 3) * 2048 ≤ (i 1).val ∧ (i 1).val < win0_4.index (tB (i 0)) (1 : Fin 3) * 2048 + 2048
              rw [e1]; omega
  | ⟨2, _⟩ => show win0_4.index (tB (i 0)) (2 : Fin 3) * 64 ≤ (i 2).val ∧ (i 2).val < win0_4.index (tB (i 0)) (2 : Fin 3) * 64 + 64
              rw [e2]; omega

/-- So the output array ends holding `G`. -/
theorem final4 (c : Dev nD) : (dats m 0 c).arrAt 4 cfg0.N = G m c :=
  (dats m 0 c).arrAt_eq_of_cover 4 (G m c) (flushed_eq m c) (cover4)

end Cert.KernelIdeal.Blocks

end
-- ==== Proof.Tile.lean ====
/-
  One key tile of the online softmax, read entry by entry on the extended reals.

  For a query row `r` and a key `j` of the tile, the masked score is
  `(∑ e, q[r, e] * k[j, e]) * c + (one - mask[j]) * neg` (`c`, `one`, `neg` the three float literals of the body). The new
  running maximum of row `r` is the old one joined with the fold of `max` over the tile's scores; the new denominator is
  `exp (mOld - mNew) * lOld + ∑ j, exp (s j - mNew)`; the new numerator at column `d` is
  `exp (mOld - mNew) * accOld[r, d] + ∑ j, exp (s j - mNew) * v[j, d]`; and the stored output is numerator / denominator.
  The matrix products are plain sums over the contracted axis, the lane reductions a sum and a fold of `max` over the
  tile's keys, and the broadcasts of the per-row columns read their row.
-/
import proofs.«137208_j5927054868632_2_alg».proof.Proof.Pieces
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe
open Idealize.ShloMosaic.ValueIdx

namespace Cert.KernelIdeal.Tile

open Cert.KernelIdeal Cert.KernelIdeal.Gen Cert.KernelIdeal.Pieces

/-- The masked, scaled score of query row `r` against key `j` of the tile. -/
def score (q : Vec Ideal S2048x64 .bf16) (k : Vec Ideal S1x1024x64 .f32) (mk : Vec Ideal S1x1x1024 .i32)
    (r : Fin 2048) (j : Fin 1024) : EReal :=
  (∑ e : Fin 64, q (ix2 r e) * k (ix3 0 j e)) * Ideal.ofBits .f32 0x3E000000#32
    + (Ideal.ofBits .f32 0x3F800000#32 - (((mk (ix3 0 0 j)).toInt : ℝ) : EReal)) * Ideal.ofBits .f32 0xFF7FFFFF#32

/-- The tile's new running maximum of row `r`, from the old one. -/
def rowMax (q : Vec Ideal S2048x64 .bf16) (k : Vec Ideal S1x1024x64 .f32) (mk : Vec Ideal S1x1x1024 .i32)
    (mOld : Vec Ideal S2048x1 .f32) (r : Fin 2048) : EReal :=
  max (mOld (ix2 r 0)) ((Finset.univ : Finset (Fin 1024)).fold max (⊥ : EReal) (fun j => score q k mk r j))

/-- The f32 pattern of minus infinity is the extended real bottom. -/
theorem ofBits_neg_inf : Ideal.ofBits .f32 0xFF800000#32 = (⊥ : EReal) := by simp [Ideal.ofBits, Ideal.ieee]

/-- An `[a]` array cast to `[a, 1]` reads, at `(i, u)`, the operand at `i`: same row-major position. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, 1]` column broadcast to `[a, b]` reads, at `(p, c)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row `r` of a `[2048, 1024]` tile with the lane coordinate `k` inserted is `(r, k)`. -/
theorem lift_row (h : S2048x1024.Reduces [1] S2048) (r : Fin 2048) (k : Fin 1024) : h.lift (ix1 r) k = ix2 r k := by
  funext c
  match c with
  | ⟨0, _⟩ => exact Fin.ext rfl
  | ⟨1, _⟩ => exact Fin.ext rfl

/-- The lane sum of a `[2048, 1024]` tile, kept as a column: entry `(r, 0)` is the sum of row `r`. -/
theorem rowsum_apply (x : FVec Ideal S2048x1024 .f32) (h : S2048x1024.Reduces [1] S2048) (hc : S2048.ShapeCasts S2048x1)
    (hφ : FKind.Formats .f32) (hacc : (0x00000000#32 : BitVec 32) = FKind.add.neutral .f32 hφ) (r : Fin 2048) :
    shapeCast S2048x1 (multiReduction (F := Ideal) .add [1] S2048 x 0x00000000#32 h hφ hacc) hc (ix2 r 0)
      = ∑ j : Fin 1024, x (ix2 r j) := by
  refine (shapeCast_a_a1_apply _ hc r 0).trans ?_
  refine (Ideal.multiReduction_add_single x _ h hφ hacc (ix1 r)).trans ?_
  exact Finset.sum_congr rfl fun k _ => congrArg x (lift_row h r k)

/-- The lane maximum of a `[2048, 1024]` tile, kept as a column: entry `(r, 0)` is the fold of `max` from minus infinity
    over row `r`. -/
theorem rowmax_apply (x : FVec Ideal S2048x1024 .f32) (h : S2048x1024.Reduces [1] S2048) (hc : S2048.ShapeCasts S2048x1)
    (hφ : FKind.Formats .f32) (hacc : (0xFF800000#32 : BitVec 32) = FKind.maximumf.neutral .f32 hφ) (r : Fin 2048) :
    shapeCast S2048x1 (multiReduction (F := Ideal) .maximumf [1] S2048 x 0xFF800000#32 h hφ hacc) hc (ix2 r 0)
      = (Finset.univ : Finset (Fin 1024)).fold max (⊥ : EReal) (fun j => x (ix2 r j)) := by
  refine (shapeCast_a_a1_apply _ hc r 0).trans ?_
  refine (Ideal.multiReduction_maximumf_single x _ h hφ hacc (ix1 r)).trans ?_
  have e : (x ∘ h.lift (ix1 r)) = fun j : Fin 1024 => x (ix2 r j) := funext fun k => congrArg x (lift_row h r k)
  rw [e]
  show (Finset.univ : Finset (Fin 1024)).fold max (Ideal.ofBits .f32 0xFF800000#32) _ = _
  rw [ofBits_neg_inf]

/-- The score product's left index keeps the output row on its free axis. -/
theorem qk_lhs_0 (i : S2048x1024.Idx) (q : dot_S2048x64_S1024x64_S2048x1024_1_1_0_0_n_n.contr.Idx) : (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide),
    dif_pos (show (0 : Fin S2048x64.rank) ∈ dot_S2048x64_S1024x64_S2048x1024_1_1_0_0_n_n.lhsNonContracting by decide)]
  rfl
/-- The score product's left index reads the contraction position on its contracted axis. -/
theorem qk_lhs_1 (i : S2048x1024.Idx) (q : dot_S2048x64_S1024x64_S2048x1024_1_1_0_0_n_n.contr.Idx) : (dot_S2048x64_S1024x64_S2048x1024_1_1_0_0_n_n.lhsIdx i q 1).val = (q ⟨0, by decide⟩).val :=
  dot_S2048x64_S1024x64_S2048x1024_1_1_0_0_n_n.lhsIdx_val_of_single rfl i q
/-- The score product's right index keeps the output column (the key) on its free axis. -/
theorem qk_rhs_0 (i : S2048x1024.Idx) (q : dot_S2048x64_S1024x64_S2048x1024_1_1_0_0_n_n.contr.Idx) : (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide),
    dif_pos (show (0 : Fin S1024x64.rank) ∈ dot_S2048x64_S1024x64_S2048x1024_1_1_0_0_n_n.rhsNonContracting by decide)]
  rfl
/-- The score product's right index reads the contraction position on its contracted axis. -/
theorem qk_rhs_1 (i : S2048x1024.Idx) (q : dot_S2048x64_S1024x64_S2048x1024_1_1_0_0_n_n.contr.Idx) : (dot_S2048x64_S1024x64_S2048x1024_1_1_0_0_n_n.rhsIdx i q 1).val = (q ⟨0, by decide⟩).val :=
  dot_S2048x64_S1024x64_S2048x1024_1_1_0_0_n_n.rhsIdx_val_of_single rfl i q

/-- The score product at `(r, j)`: the sum over the 64 features of `q[r, e] * w[j, e]` (both operands contracted on
    their second axis, accumulated into zero). -/
theorem qk_apply (q : FVec Ideal S2048x64 .bf16) (w : FVec Ideal S1024x64 .bf16) (r : Fin 2048) (j : Fin 1024) :
    matmul (F := Ideal) dot_S2048x64_S1024x64_S2048x1024_1_1_0_0_n_n none q w (constant S2048x1024 .f32 0x00000000#32) (ix2 r j)
      = ∑ e : Fin 64, q (ix2 r e) * w (ix2 j e) := by
  refine (Ideal.matmul_constant_zero_apply _ none q w (ix2 r j)).trans ?_
  rw [← Equiv.sum_comp (contrEquiv1 dot_S2048x64_S1024x64_S2048x1024_1_1_0_0_n_n 64 rfl rfl).symm]
  refine Finset.sum_congr rfl fun e _ => ?_
  have hk := contrEquiv1_symm_val dot_S2048x64_S1024x64_S2048x1024_1_1_0_0_n_n 64 rfl rfl e
  have el : dot_S2048x64_S1024x64_S2048x1024_1_1_0_0_n_n.lhsIdx (ix2 r j) ((contrEquiv1 dot_S2048x64_S1024x64_S2048x1024_1_1_0_0_n_n 64 rfl rfl).symm e) = ix2 r e :=
    funext fun a => Fin.ext (by
      match a with
      | ⟨0, _⟩ => exact qk_lhs_0 _ _
      | ⟨1, _⟩ => exact (qk_lhs_1 _ _).trans hk)
  have er : dot_S2048x64_S1024x64_S2048x1024_1_1_0_0_n_n.rhsIdx (ix2 r j) ((contrEquiv1 dot_S2048x64_S1024x64_S2048x1024_1_1_0_0_n_n 64 rfl rfl).symm e) = ix2 j e :=
    funext fun a => Fin.ext (by
      match a with
      | ⟨0, _⟩ => exact qk_rhs_0 _ _
      | ⟨1, _⟩ => exact (qk_rhs_1 _ _).trans hk)
  rw [el, er]

/-- The weighted-value product's left index keeps the output row on its free axis. -/
theorem pv_lhs_0 (i : S2048x64.Idx) (q : dot_S2048x1024_S1024x64_S2048x64_1_0_0_1_n_n.contr.Idx) : (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide),
    dif_pos (show (0 : Fin S2048x1024.rank) ∈ dot_S2048x1024_S1024x64_S2048x64_1_0_0_1_n_n.lhsNonContracting by decide)]
  rfl
/-- The weighted-value product's left index reads the contraction position (the key) on its contracted axis. -/
theorem pv_lhs_1 (i : S2048x64.Idx) (q : dot_S2048x1024_S1024x64_S2048x64_1_0_0_1_n_n.contr.Idx) : (dot_S2048x1024_S1024x64_S2048x64_1_0_0_1_n_n.lhsIdx i q 1).val = (q ⟨0, by decide⟩).val :=
  dot_S2048x1024_S1024x64_S2048x64_1_0_0_1_n_n.lhsIdx_val_of_single rfl i q
/-- The weighted-value product's right index reads the contraction position (the key) on its contracted axis. -/
theorem pv_rhs_0 (i : S2048x64.Idx) (q : dot_S2048x1024_S1024x64_S2048x64_1_0_0_1_n_n.contr.Idx) : (dot_S2048x1024_S1024x64_S2048x64_1_0_0_1_n_n.rhsIdx i q 0).val = (q ⟨0, by decide⟩).val :=
  dot_S2048x1024_S1024x64_S2048x64_1_0_0_1_n_n.rhsIdx_val_of_single rfl i q
/-- The weighted-value product's right index keeps the output column on its free axis. -/
theorem pv_rhs_1 (i : S2048x64.Idx) (q : dot_S2048x1024_S1024x64_S2048x64_1_0_0_1_n_n.contr.Idx) : (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide),
    dif_pos (show (1 : Fin S1024x64.rank) ∈ dot_S2048x1024_S1024x64_S2048x64_1_0_0_1_n_n.rhsNonContracting by decide)]
  rfl

/-- The weighted-value product at `(r, d)`: the sum over the tile's 1024 keys of `p[r, j] * w[j, d]`. -/
theorem pv_apply (p : FVec Ideal S2048x1024 .bf16) (w : FVec Ideal S1024x64 .bf16) (r : Fin 2048) (d : Fin 64) :
    matmul (F := Ideal) dot_S2048x1024_S1024x64_S2048x64_1_0_0_1_n_n none p w (constant S2048x64 .f32 0x00000000#32) (ix2 r d)
      = ∑ j : Fin 1024, p (ix2 r j) * w (ix2 j d) := by
  refine (Ideal.matmul_constant_zero_apply _ none p w (ix2 r d)).trans ?_
  rw [← Equiv.sum_comp (contrEquiv1 dot_S2048x1024_S1024x64_S2048x64_1_0_0_1_n_n 1024 rfl rfl).symm]
  refine Finset.sum_congr rfl fun j _ => ?_
  have hk := contrEquiv1_symm_val dot_S2048x1024_S1024x64_S2048x64_1_0_0_1_n_n 1024 rfl rfl j
  have el : dot_S2048x1024_S1024x64_S2048x64_1_0_0_1_n_n.lhsIdx (ix2 r d) ((contrEquiv1 dot_S2048x1024_S1024x64_S2048x64_1_0_0_1_n_n 1024 rfl rfl).symm j) = ix2 r j :=
    funext fun a => Fin.ext (by
      match a with
      | ⟨0, _⟩ => exact pv_lhs_0 _ _
      | ⟨1, _⟩ => exact (pv_lhs_1 _ _).trans hk)
  have er : dot_S2048x1024_S1024x64_S2048x64_1_0_0_1_n_n.rhsIdx (ix2 r d) ((contrEquiv1 dot_S2048x1024_S1024x64_S2048x64_1_0_0_1_n_n 1024 rfl rfl).symm j) = ix2 j d :=
    funext fun a => Fin.ext (by
      match a with
      | ⟨0, _⟩ => exact (pv_rhs_0 _ _).trans hk
      | ⟨1, _⟩ => exact pv_rhs_1 _ _)
  rw [el, er]

/-- The tile's score entry: the product sum scaled, plus the mask row's term. -/
theorem pay10_apply (q : Vec Ideal S2048x64 .bf16) (k : Vec Ideal S1x1024x64 .f32) (mk : Vec Ideal S1x1x1024 .i32)
    (r : Fin 2048) (j : Fin 1024) : k0_pay10 (F := Ideal) q k mk (ix2 r j) = score q k mk r j := by
  have e1 : matmul (F := Ideal) dot_S2048x64_S1024x64_S2048x1024_1_1_0_0_n_n none q
        (truncf .bf16 (shapeCast S1024x64 k shapeCasts_S1x1024x64_S1024x64) bitsLt_bf16_f32)
        (constant S2048x1024 .f32 0x00000000#32) (ix2 r j)
      = ∑ e : Fin 64, q (ix2 r e) * k (ix3 0 j e) :=
    (qk_apply q _ r j).trans
      (Finset.sum_congr rfl fun e _ => congrArg (q (ix2 r e) * ·) (shapeCast_1ab_ab_apply k _ j e))
  have e2 : ∀ m : FVec Ideal S1024 .f32,
      broadcastTo S2048x1024 (shapeCast S1x1024 m shapeCasts_S1024_S1x1024) broadcasts_S1x1024_S2048x1024 (ix2 r j)
        = m (ix1 j) :=
    fun m => (broadcastTo_1b_ab_apply _ _ r j).trans (shapeCast_a_1a_apply m _ 0 j)
  have e3 : shapeCast S1024 mk shapeCasts_S1x1x1024_S1024 (ix1 j) = mk (ix3 0 0 j) := shapeCast_11a_a_apply mk _ j
  unfold k0_pay10 score
  refine (addf_apply _ _ _).trans ?_
  rw [e2, mulf_apply, e1]
  rw [mulf_apply, subf_apply, sitofp_apply, e3]
  rfl

/-- The joined maximum at row `r`: the old maximum joined with the fold of `max` over the tile's scores. -/
theorem pay11_apply (q : Vec Ideal S2048x64 .bf16) (k : Vec Ideal S1x1024x64 .f32) (mk : Vec Ideal S1x1x1024 .i32)
    (mOld : Vec Ideal S2048x1 .f32) (r : Fin 2048) :
    k0_pay11 (F := Ideal) q k mk mOld (ix2 r 0) = rowMax q k mk mOld r := by
  unfold k0_pay11 rowMax
  refine (maximumf_apply _ _ _).trans ?_
  refine congrArg (max (mOld (ix2 r 0))) ((rowmax_apply _ _ _ _ _ r).trans ?_)
  exact congrArg (fun f => (Finset.univ : Finset (Fin 1024)).fold max (⊥ : EReal) f)
    (funext fun j => pay10_apply q k mk r j)

/-- The rescaling factor at row `r`: `exp (m - mNew)`. -/
theorem pay12_apply (q : Vec Ideal S2048x64 .bf16) (k : Vec Ideal S1x1024x64 .f32) (mk : Vec Ideal S1x1x1024 .i32)
    (mOld m : Vec Ideal S2048x1 .f32) (r : Fin 2048) :
    k0_pay12 (F := Ideal) q k mk mOld m (ix2 r 0) = Ideal.exp (m (ix2 r 0) - rowMax q k mk mOld r) := by
  unfold k0_pay12
  show Ideal.exp (m (ix2 r 0) - k0_pay11 (F := Ideal) q k mk mOld (ix2 r 0)) = _
  rw [pay11_apply]

/-- The tile's unnormalised weights: `exp (s - mNew)`, the new maximum read from its row. -/
theorem pay13_apply (q : Vec Ideal S2048x64 .bf16) (k : Vec Ideal S1x1024x64 .f32) (mk : Vec Ideal S1x1x1024 .i32)
    (mOld : Vec Ideal S2048x1 .f32) (r : Fin 2048) (j : Fin 1024) :
    k0_pay13 (F := Ideal) q k mk mOld (ix2 r j) = Ideal.exp (score q k mk r j - rowMax q k mk mOld r) := by
  unfold k0_pay13
  show Ideal.exp (k0_pay10 (F := Ideal) q k mk (ix2 r j)
      - broadcastTo S2048x1024 (k0_pay11 (F := Ideal) q k mk mOld) broadcasts_S2048x1_S2048x1024 (ix2 r j)) = _
  rw [broadcastTo_a1_ab_apply, pay10_apply, pay11_apply]

/-- The new running maximum of row `r` is the old one joined with the tile's row maximum. -/
theorem mNew_apply (q : Vec Ideal S2048x64 .bf16) (k : Vec Ideal S1x1024x64 .f32) (mk : Vec Ideal S1x1x1024 .i32)
    (mOld : Vec Ideal S2048x1 .f32) (r : Fin 2048) :
    mNew (F := Ideal) q k mk mOld (ix2 r 0) = rowMax q k mk mOld r := by
  show k0_pay3 (k0_pay11 (F := Ideal) q k mk mOld) (ix2 r 0) = _
  unfold k0_pay3
  rw [shapeCast_self]
  exact pay11_apply q k mk mOld r

/-- The new denominator of row `r`: the old one rescaled, plus the row sum of the tile's weights. -/
theorem lNew_apply (q : Vec Ideal S2048x64 .bf16) (k : Vec Ideal S1x1024x64 .f32) (mk : Vec Ideal S1x1x1024 .i32)
    (mOld lOld : Vec Ideal S2048x1 .f32) (r : Fin 2048) :
    lNew (F := Ideal) q k mk mOld lOld (ix2 r 0)
      = Ideal.exp (mOld (ix2 r 0) - rowMax q k mk mOld r) * lOld (ix2 r 0)
        + ∑ j : Fin 1024, Ideal.exp (score q k mk r j - rowMax q k mk mOld r) := by
  show k0_pay1 (k0_pay12 (F := Ideal) q k mk mOld mOld) (k0_pay13 (F := Ideal) q k mk mOld) lOld (ix2 r 0) = _
  unfold k0_pay1
  rw [shapeCast_self]
  refine (addf_apply _ _ _).trans ?_
  refine congrArg₂ (· + ·) ?_
    ((rowsum_apply _ _ _ _ _ r).trans (Finset.sum_congr rfl fun j _ => pay13_apply q k mk mOld r j))
  rw [mulf_apply, pay12_apply]

/-- The new numerator at `(r, d)`: the old one rescaled, plus the tile's weights times the values. -/
theorem accNew_apply (q : Vec Ideal S2048x64 .bf16) (k v : Vec Ideal S1x1024x64 .f32) (mk : Vec Ideal S1x1x1024 .i32)
    (mOld : Vec Ideal S2048x1 .f32) (accOld : Vec Ideal S2048x64 .f32) (r : Fin 2048) (d : Fin 64) :
    accNew (F := Ideal) q k v mk mOld accOld (ix2 r d)
      = Ideal.exp (mOld (ix2 r 0) - rowMax q k mk mOld r) * accOld (ix2 r d)
        + ∑ j : Fin 1024, Ideal.exp (score q k mk r j - rowMax q k mk mOld r) * v (ix3 0 j d) := by
  show k0_pay2 (k0_pay9 (F := Ideal) v) (k0_pay12 (F := Ideal) q k mk mOld mOld) (k0_pay13 (F := Ideal) q k mk mOld) accOld
      (ix2 r d) = _
  unfold k0_pay2
  rw [shapeCast_self]
  refine (addf_apply _ _ _).trans ?_
  rw [pv_apply, mulf_apply, broadcastTo_a1_ab_apply, pay12_apply]
  refine congrArg (_ + ·) (Finset.sum_congr rfl fun j _ => ?_)
  rw [truncf_apply, pay13_apply]
  exact congrArg (_ * ·) (shapeCast_1ab_ab_apply v _ j d)

/-- The stored output block is numerator over denominator, entry by entry. -/
theorem pay4_apply (acc : Vec Ideal S2048x64 .f32) (l : Vec Ideal S2048x1 .f32) (r : Fin 2048) (d : Fin 64) :
    k0_pay4 (F := Ideal) acc l (ix3 0 r d) = Ideal.div (acc (ix2 r d)) (l (ix2 r 0)) := by
  unfold k0_pay4
  refine (shapeCast_ab_1ab_apply _ _ 0 r d).trans ?_
  exact congrArg (Ideal.div (acc (ix2 r d))) (broadcastTo_a1_ab_apply l _ r d)

/-- The cached query block is the loaded block with its leading unit axis dropped (the format change is the identity on the extended reals). -/
theorem pay8_apply (x : Vec Ideal S1x2048x64 .f32) (r : Fin 2048) (e : Fin 64) :
    k0_pay8 (F := Ideal) x (ix2 r e) = x (ix3 0 r e) := by
  unfold k0_pay8
  rw [shapeCast_self]
  exact shapeCast_1ab_ab_apply x _ r e

/-- The running maximum is reset to minus infinity. -/
theorem pay5_apply (r : Fin 2048) : k0_pay5 (F := Ideal) (ix2 r 0) = (⊥ : EReal) := by
  unfold k0_pay5
  rw [shapeCast_self]
  exact ofBits_neg_inf

/-- The running denominator is reset to zero. -/
theorem pay6_apply (r : Fin 2048) : k0_pay6 (F := Ideal) (ix2 r 0) = (0 : EReal) := by
  unfold k0_pay6
  rw [shapeCast_self]
  exact Ideal.ofBits_zero_f32

/-- The running numerator is reset to zero. -/
theorem pay7_apply (r : Fin 2048) (d : Fin 64) : k0_pay7 (F := Ideal) (ix2 r d) = (0 : EReal) := by
  unfold k0_pay7
  rw [shapeCast_self]
  exact Ideal.ofBits_zero_f32

end Cert.KernelIdeal.Tile

end
-- ==== Proof.Softmax.lean ====
/-
  The algebra of the two-tile online softmax on the extended reals, independent of any program.

  A row of 2048 real scores `s` is cut into a low half (keys 0..1023, `keyLo`) and a high half (keys 1024..2047,
  `keyHi`). The online form keeps a running shift, a running denominator and a running numerator: after the low half
  they are `m0`, `exp (⊥ - m0) * 0 + ∑ exp (s - m0)` and `exp (⊥ - m0) * 0 + ∑ exp (s - m0) * v` (the run starts from the
  shift `⊥` and from zero sums, and `exp ⊥ = 0`); the high half rescales both by `exp (m0 - m1)` and adds its own terms at
  the new shift `m1`. The quotient of the two is the softmax-weighted mean of `v`, whatever the real shifts `m0`, `m1`
  are, and so is the plain form `∑ (exp (s - M) / (0 + ∑ exp (s - M))) * v` for any real `M`: a common factor
  `exp (-shift)` cancels between numerator and denominator, and the denominator is a sum of positive reals.
  All of it is real arithmetic; the statements are on the extended reals at coerced reals, where `Ideal.exp` is `Real.exp`
  and `Ideal.div` by a nonzero real is the real quotient.
-/
import Idealize.ShloMosaic.PureOps.Ideal
import Idealize.ShloMosaic.PureOps.Ideal.Laws

noncomputable section

namespace Cert.Attn

open Idealize.ShloMosaic

/-- Key `k` of the low half of a row of 2048. -/
def keyLo (k : Fin 1024) : Fin 2048 := ⟨k.val, by omega⟩
/-- Key `k` of the high half: `1024 + k`. -/
def keyHi (k : Fin 1024) : Fin 2048 := ⟨1024 + k.val, by omega⟩

/-- A sum over the 2048 keys is the sum over the low half plus the sum over the high half. -/
theorem sum_keys {α : Type*} [AddCommMonoid α] (f : Fin 2048 → α) :
    ∑ k : Fin 2048, f k = ∑ k : Fin 1024, f (keyLo k) + ∑ k : Fin 1024, f (keyHi k) := by
  exact Fin.sum_univ_add (a := 1024) (b := 1024) f

/-- A finite sum of coerced reals is the coerced real sum. -/
theorem coe_sum {ι : Type*} (t : Finset ι) (f : ι → ℝ) : ∑ k ∈ t, ((f k : ℝ) : EReal) = ((∑ k ∈ t, f k : ℝ) : EReal) := by
  classical
  refine Finset.induction_on t ?_ ?_
  · rw [Finset.sum_empty, Finset.sum_empty, EReal.coe_zero]
  · intro a t ha ih
    rw [Finset.sum_insert ha, Finset.sum_insert ha, ih, EReal.coe_add]

/-- The fold of `max` from `⊥` over a nonempty finite family of reals is a real. -/
theorem fold_max_coe {n : ℕ} (hn : 0 < n) (f : Fin n → ℝ) :
    ∃ r : ℝ, (Finset.univ : Finset (Fin n)).fold max (⊥ : EReal) (fun k => ((f k : ℝ) : EReal)) = (r : EReal) := by
  have hlt : (Finset.univ : Finset (Fin n)).fold max (⊥ : EReal) (fun k => ((f k : ℝ) : EReal)) < ⊤ :=
    (Finset.fold_max_lt _).2 ⟨bot_lt_top, fun k _ => EReal.coe_lt_top (f k)⟩
  have hgt : ⊥ < (Finset.univ : Finset (Fin n)).fold max (⊥ : EReal) (fun k => ((f k : ℝ) : EReal)) :=
    (Finset.lt_fold_max _).2 (Or.inr ⟨⟨0, hn⟩, Finset.mem_univ _, EReal.bot_lt_coe (f ⟨0, hn⟩)⟩)
  exact ⟨_, (EReal.coe_toReal hlt.ne hgt.ne').symm⟩

/-- Rescaling the low-half partial sum from shift `m0` to shift `m1` (the factor `exp (m0 - m1)`) and adding the
    high half at shift `m1` gives the full weighted sum at shift `m1`: `exp (m0 - m1) * exp (s - m0) = exp (s - m1)`. -/
theorem merge_real (s w : Fin 2048 → ℝ) (m0 m1 : ℝ) :
    Real.exp (m0 - m1) * (∑ k : Fin 1024, Real.exp (s (keyLo k) - m0) * w (keyLo k))
        + ∑ k : Fin 1024, Real.exp (s (keyHi k) - m1) * w (keyHi k)
      = ∑ k : Fin 2048, Real.exp (s k - m1) * w k := by
  rw [sum_keys (fun k => Real.exp (s k - m1) * w k), Finset.mul_sum]
  congr 1
  refine Finset.sum_congr rfl (fun k _ => ?_)
  have h : m0 - m1 + (s (keyLo k) - m0) = s (keyLo k) - m1 := by ring
  rw [← mul_assoc, ← Real.exp_add, h]

/-- The same without weights: the rescaled low-half denominator plus the high-half one is the full denominator. -/
theorem merge_real_one (s : Fin 2048 → ℝ) (m0 m1 : ℝ) :
    Real.exp (m0 - m1) * (∑ k : Fin 1024, Real.exp (s (keyLo k) - m0))
        + ∑ k : Fin 1024, Real.exp (s (keyHi k) - m1)
      = ∑ k : Fin 2048, Real.exp (s k - m1) := by
  have h := merge_real s (fun _ => 1) m0 m1
  simp only [mul_one] at h
  exact h

/-- Changing the shift from `M` to `m` multiplies the weighted sum by the common factor `exp (M - m)`. -/
theorem shift_real (s w : Fin 2048 → ℝ) (m M : ℝ) :
    ∑ k : Fin 2048, Real.exp (s k - m) * w k = Real.exp (M - m) * ∑ k : Fin 2048, Real.exp (s k - M) * w k := by
  rw [Finset.mul_sum]
  refine Finset.sum_congr rfl (fun k _ => ?_)
  have h : M - m + (s k - M) = s k - m := by ring
  rw [← mul_assoc, ← Real.exp_add, h]

/-- The same without weights. -/
theorem shift_real_one (s : Fin 2048 → ℝ) (m M : ℝ) :
    ∑ k : Fin 2048, Real.exp (s k - m) = Real.exp (M - m) * ∑ k : Fin 2048, Real.exp (s k - M) := by
  have h := shift_real s (fun _ => 1) m M
  simp only [mul_one] at h
  exact h

/-- The denominator, a sum of exponentials over the 2048 keys, is positive. -/
theorem den_pos (s : Fin 2048 → ℝ) (m : ℝ) : 0 < ∑ k : Fin 2048, Real.exp (s k - m) :=
  Finset.sum_pos (fun k _ => Real.exp_pos _) ⟨⟨0, by omega⟩, Finset.mem_univ _⟩

/-- The real identity: the quotient of the weighted sum by the plain sum does not depend on the shift, and it is the
    sum of the normalised weights times the values. -/
theorem softmax_real (s v : Fin 2048 → ℝ) (m M : ℝ) :
    (∑ k : Fin 2048, Real.exp (s k - m) * v k) * (1 / ∑ k : Fin 2048, Real.exp (s k - m))
      = ∑ k : Fin 2048, Real.exp (s k - M) * (1 / ∑ j : Fin 2048, Real.exp (s j - M)) * v k := by
  have hD : (∑ j : Fin 2048, Real.exp (s j - M)) ≠ 0 := (den_pos s M).ne'
  have hE : Real.exp (M - m) ≠ 0 := (Real.exp_pos _).ne'
  have hR : ∑ k : Fin 2048, Real.exp (s k - M) * (1 / ∑ j : Fin 2048, Real.exp (s j - M)) * v k
      = (∑ k : Fin 2048, Real.exp (s k - M) * v k) * (1 / ∑ j : Fin 2048, Real.exp (s j - M)) := by
    rw [Finset.sum_mul]
    refine Finset.sum_congr rfl (fun k _ => ?_)
    ring
  rw [hR, shift_real s v m M, shift_real_one s m M]
  field_simp

/-- `Ideal.exp` of a difference of coerced reals is the coerced real exponential of the difference. -/
theorem exp_sub_coe (a b : ℝ) : Ideal.exp ((a : EReal) - (b : EReal)) = ((Real.exp (a - b) : ℝ) : EReal) := by
  rw [← EReal.coe_sub, Ideal.exp_coe]

/-- The online numerator (started from the shift `⊥` and a zero sum) is the coerced full weighted sum at shift `m1`. -/
theorem online_num_coe (s w : Fin 2048 → ℝ) (m0 m1 : ℝ) :
    Ideal.exp ((m0 : EReal) - (m1 : EReal))
          * (Ideal.exp (⊥ - (m0 : EReal)) * 0
              + ∑ k : Fin 1024, Ideal.exp ((s (keyLo k) : EReal) - (m0 : EReal)) * (w (keyLo k) : EReal))
        + ∑ k : Fin 1024, Ideal.exp ((s (keyHi k) : EReal) - (m1 : EReal)) * (w (keyHi k) : EReal)
      = ((∑ k : Fin 2048, Real.exp (s k - m1) * w k : ℝ) : EReal) := by
  rw [mul_zero, zero_add, ← merge_real s w m0 m1]
  simp only [exp_sub_coe, ← EReal.coe_mul, coe_sum, ← EReal.coe_add]

/-- The online denominator is the coerced full sum of exponentials at shift `m1`. -/
theorem online_den_coe (s : Fin 2048 → ℝ) (m0 m1 : ℝ) :
    Ideal.exp ((m0 : EReal) - (m1 : EReal))
          * (Ideal.exp (⊥ - (m0 : EReal)) * 0
              + ∑ k : Fin 1024, Ideal.exp ((s (keyLo k) : EReal) - (m0 : EReal)))
        + ∑ k : Fin 1024, Ideal.exp ((s (keyHi k) : EReal) - (m1 : EReal))
      = ((∑ k : Fin 2048, Real.exp (s k - m1) : ℝ) : EReal) := by
  rw [mul_zero, zero_add, ← merge_real_one s m0 m1]
  simp only [exp_sub_coe, ← EReal.coe_mul, coe_sum, ← EReal.coe_add]

/-- The two-tile online softmax is the softmax: for real scores `s`, real values `v` and ANY real shifts `m0`, `m1`, `M`. -/
theorem online_eq_softmax (s v : Fin 2048 → ℝ) (m0 m1 M : ℝ) :
    Ideal.div
      (Ideal.exp ((m0 : EReal) - (m1 : EReal))
          * (Ideal.exp (⊥ - (m0 : EReal)) * 0
              + ∑ k : Fin 1024, Ideal.exp ((s (keyLo k) : EReal) - (m0 : EReal)) * (v (keyLo k) : EReal))
        + ∑ k : Fin 1024, Ideal.exp ((s (keyHi k) : EReal) - (m1 : EReal)) * (v (keyHi k) : EReal))
      (Ideal.exp ((m0 : EReal) - (m1 : EReal))
          * (Ideal.exp (⊥ - (m0 : EReal)) * 0
              + ∑ k : Fin 1024, Ideal.exp ((s (keyLo k) : EReal) - (m0 : EReal)))
        + ∑ k : Fin 1024, Ideal.exp ((s (keyHi k) : EReal) - (m1 : EReal)))
    = ∑ k : Fin 2048, Ideal.div (Ideal.exp ((s k : EReal) - (M : EReal)))
          (0 + ∑ j : Fin 2048, Ideal.exp ((s j : EReal) - (M : EReal))) * (v k : EReal) := by
  have hDM : (0 : EReal) + ∑ j : Fin 2048, Ideal.exp ((s j : EReal) - (M : EReal))
      = ((∑ j : Fin 2048, Real.exp (s j - M) : ℝ) : EReal) := by
    rw [zero_add]
    simp only [exp_sub_coe, coe_sum]
  rw [online_num_coe, online_den_coe, hDM, Ideal.div_coe (den_pos s m1).ne', ← EReal.coe_mul, softmax_real s v m1 M,
    ← coe_sum]
  refine Finset.sum_congr rfl (fun k _ => ?_)
  rw [Ideal.div_coe (den_pos s M).ne', exp_sub_coe, ← EReal.coe_mul, ← EReal.coe_mul]

end Cert.Attn

end
-- ==== Proof.Row.lean ====
/-
  One query row of attention, both ways, on the extended reals.

  A row has 2048 keys; key `k` has a score built from the query row `x0r` and the key row `x1 k` (64 entries each) and an
  integer mask entry `z k`. The kernel spells the score `(∑ e, x0r e * x1 k e) * c + (one - z k) * neg` with `c` the float
  word of 1/8; the reference spells it `(∑ e, x0r e * x1 k e) / sqrt 64 + (one - z k) * neg`. Since `sqrt 64 = 8` the two
  scores are one real number whenever the entries are real.
  The ONLINE form cuts the keys into a low and a high half: it keeps a running shift (the maximum so far, from `⊥`), a
  running denominator and a running numerator (from zero), rescaling both by `exp (old shift - new shift)` when the second
  half arrives, and ends with numerator / denominator. The PLAIN form subtracts the maximum of all 2048 scores, and sums
  `(exp (s k - M) / (0 + ∑ exp (s j - M))) * v k`. With real entries every shift is a real (a maximum of finitely many
  reals), and both forms are the softmax-weighted mean of `v`: the algebra is `online_eq_softmax`.
-/
import proofs.«137208_j5927054868632_2_alg».proof.Proof.Softmax

noncomputable section

namespace Cert.Attn

open Idealize.ShloMosaic

/-- The kernel's spelling of the masked score of key `k`. -/
def kScore (x0r : Fin 64 → EReal) (x1 : Fin 2048 → Fin 64 → EReal) (z : Fin 2048 → ℤ) (k : Fin 2048) : EReal :=
  (∑ e : Fin 64, x0r e * x1 k e) * Ideal.ofBits .f32 0x3E000000#32
    + (Ideal.ofBits .f32 0x3F800000#32 - (((z k : ℤ) : ℝ) : EReal)) * Ideal.ofBits .f32 0xFF7FFFFF#32

/-- The reference's spelling of the masked score of key `k`. -/
def rScore (x0r : Fin 64 → EReal) (x1 : Fin 2048 → Fin 64 → EReal) (z : Fin 2048 → ℤ) (k : Fin 2048) : EReal :=
  Ideal.div (∑ e : Fin 64, x0r e * x1 k e) (Ideal.sqrt (Ideal.ofBits .f32 0x42800000#32))
    + (Ideal.ofBits .f32 0x3F800000#32 - (((z k : ℤ) : ℝ) : EReal)) * Ideal.ofBits .f32 0xFF7FFFFF#32

/-- The running shift after the low half: the maximum of its scores, from `⊥`. -/
def shift0 (sLo : Fin 1024 → EReal) : EReal :=
  max (⊥ : EReal) ((Finset.univ : Finset (Fin 1024)).fold max (⊥ : EReal) sLo)

/-- The running shift after the high half. -/
def shift1 (sLo sHi : Fin 1024 → EReal) : EReal :=
  max (shift0 sLo) ((Finset.univ : Finset (Fin 1024)).fold max (⊥ : EReal) sHi)

/-- The online form's result for one row and one output column. -/
def onlineRow (sLo sHi vLo vHi : Fin 1024 → EReal) : EReal :=
  Ideal.div
    (Ideal.exp (shift0 sLo - shift1 sLo sHi)
        * (Ideal.exp (⊥ - shift0 sLo) * 0 + ∑ j : Fin 1024, Ideal.exp (sLo j - shift0 sLo) * vLo j)
      + ∑ j : Fin 1024, Ideal.exp (sHi j - shift1 sLo sHi) * vHi j)
    (Ideal.exp (shift0 sLo - shift1 sLo sHi)
        * (Ideal.exp (⊥ - shift0 sLo) * 0 + ∑ j : Fin 1024, Ideal.exp (sLo j - shift0 sLo))
      + ∑ j : Fin 1024, Ideal.exp (sHi j - shift1 sLo sHi))

/-- The plain form's result for one row and one output column, at the shift `M`. -/
def plainRow (s v : Fin 2048 → EReal) (M : EReal) : EReal :=
  ∑ k : Fin 2048, Ideal.div (Ideal.exp (s k - M)) (0 + ∑ j : Fin 2048, Ideal.exp (s j - M)) * v k

/-- The f32 word `0x3E000000` denotes the real `1/8`. -/
theorem lit_eighth : Ideal.ofBits .f32 0x3E000000#32 = ((1 / 8 : ℝ) : EReal) := by
  simp [Ideal.ofBits, Ideal.ieee, -EReal.coe_mul]; norm_num

/-- The f32 word `0x3F800000` denotes the real `1`. -/
theorem lit_one : Ideal.ofBits .f32 0x3F800000#32 = ((1 : ℝ) : EReal) := by
  simp [Ideal.ofBits, Ideal.ieee, -EReal.coe_mul]; norm_num

/-- The f32 word `0x42800000` denotes the real `64`. -/
theorem lit_64 : Ideal.ofBits .f32 0x42800000#32 = ((64 : ℝ) : EReal) := by
  simp [Ideal.ofBits, Ideal.ieee, -EReal.coe_mul]; norm_num

/-- The f32 word `0xFF7FFFFF` (the most negative finite float) denotes a real number. -/
theorem lit_neg : ∃ c : ℝ, Ideal.ofBits .f32 0xFF7FFFFF#32 = (c : EReal) := by
  refine ⟨(Ideal.ofBits .f32 0xFF7FFFFF#32).toReal, (EReal.coe_toReal ?_ ?_).symm⟩
  · simp [Ideal.ofBits, Ideal.ieee, -EReal.coe_mul]
  · simp [Ideal.ofBits, Ideal.ieee, -EReal.coe_mul]

/-- The square root of `64` is `8`, on the extended reals. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The masked score of key `k` as a real number: the product sum over the 64 entries times `1/8`, plus
    `(1 - z k) * c`. -/
def sReal (a0 : Fin 64 → ℝ) (a1 : Fin 2048 → Fin 64 → ℝ) (z : Fin 2048 → ℤ) (c : ℝ) (k : Fin 2048) : ℝ :=
  (∑ e : Fin 64, a0 e * a1 k e) * (1 / 8) + (1 - ((z k : ℤ) : ℝ)) * c

/-- At real entries the kernel's score is the coerced real score. -/
theorem kScore_coe (a0 : Fin 64 → ℝ) (a1 : Fin 2048 → Fin 64 → ℝ) (z : Fin 2048 → ℤ) (c : ℝ)
    (hc : Ideal.ofBits .f32 0xFF7FFFFF#32 = (c : EReal)) (k : Fin 2048) :
    kScore (fun e => (a0 e : EReal)) (fun k e => (a1 k e : EReal)) z k = ((sReal a0 a1 z c k : ℝ) : EReal) := by
  unfold kScore sReal
  rw [lit_eighth, lit_one, hc]
  simp only [← EReal.coe_mul, coe_sum, ← EReal.coe_sub, ← EReal.coe_add]

/-- At real entries the reference's score is the same coerced real: dividing by `sqrt 64 = 8` is multiplying by `1/8`. -/
theorem rScore_coe (a0 : Fin 64 → ℝ) (a1 : Fin 2048 → Fin 64 → ℝ) (z : Fin 2048 → ℤ) (c : ℝ)
    (hc : Ideal.ofBits .f32 0xFF7FFFFF#32 = (c : EReal)) (k : Fin 2048) :
    rScore (fun e => (a0 e : EReal)) (fun k e => (a1 k e : EReal)) z k = ((sReal a0 a1 z c k : ℝ) : EReal) := by
  unfold rScore sReal
  rw [lit_64, sqrt_64, Ideal.div_coe (by norm_num : (8 : ℝ) ≠ 0), lit_one, hc]
  simp only [← EReal.coe_mul, coe_sum, ← EReal.coe_sub, ← EReal.coe_add]

/-- The maximum from `⊥` of a nonempty finite family of reals, joined with `⊥`, is a real. -/
theorem bot_max_fold_coe {n : ℕ} (hn : 0 < n) (f : Fin n → ℝ) :
    ∃ r : ℝ, max (⊥ : EReal) ((Finset.univ : Finset (Fin n)).fold max (⊥ : EReal) (fun k => ((f k : ℝ) : EReal))) = (r : EReal) := by
  obtain ⟨r, hr⟩ := fold_max_coe hn f
  exact ⟨r, by rw [hr, max_eq_right bot_le]⟩

/-- The running shift after the low half of real scores is a real. -/
theorem shift0_coe (f : Fin 1024 → ℝ) : ∃ r : ℝ, shift0 (fun j => ((f j : ℝ) : EReal)) = (r : EReal) :=
  bot_max_fold_coe (by norm_num) f

/-- The join of two coerced reals is the coerced join of the reals. -/
theorem coe_max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The running shift after the high half of real scores is a real: the join of two reals. -/
theorem shift1_coe (f g : Fin 1024 → ℝ) :
    ∃ r : ℝ, shift1 (fun j => ((f j : ℝ) : EReal)) (fun j => ((g j : ℝ) : EReal)) = (r : EReal) := by
  obtain ⟨r0, h0⟩ := shift0_coe f
  obtain ⟨r1, h1⟩ := fold_max_coe (n := 1024) (by norm_num) g
  refine ⟨max r0 r1, ?_⟩
  unfold shift1
  rw [h0, h1, coe_max_coe]

/-- With real entries, the online form over the kernel's scores is the plain form over the reference's scores at the
    reference's shift (the maximum of all its scores, joined with `⊥`). -/
theorem row_eq (x0r : Fin 64 → EReal) (x1 : Fin 2048 → Fin 64 → EReal) (x2 : Fin 2048 → EReal) (z : Fin 2048 → ℤ)
    (h0 : ∀ e, ∃ r : ℝ, x0r e = (r : EReal)) (h1 : ∀ k e, ∃ r : ℝ, x1 k e = (r : EReal))
    (h2 : ∀ k, ∃ r : ℝ, x2 k = (r : EReal)) :
    onlineRow (fun j => kScore x0r x1 z (keyLo j)) (fun j => kScore x0r x1 z (keyHi j))
        (fun j => x2 (keyLo j)) (fun j => x2 (keyHi j))
      = plainRow (fun k => rScore x0r x1 z k) x2
          (max (⊥ : EReal) ((Finset.univ : Finset (Fin 2048)).fold max (⊥ : EReal) (fun k => rScore x0r x1 z k))) := by
  choose a0 ha0 using h0
  choose a1 ha1 using h1
  choose a2 ha2 using h2
  obtain ⟨c, hc⟩ := lit_neg
  obtain rfl : x0r = fun e => (a0 e : EReal) := funext ha0
  obtain rfl : x1 = fun k e => (a1 k e : EReal) := funext fun k => funext fun e => ha1 k e
  obtain rfl : x2 = fun k => (a2 k : EReal) := funext ha2
  simp only [kScore_coe a0 a1 z c hc, rScore_coe a0 a1 z c hc]
  obtain ⟨m0, hm0⟩ := shift0_coe (fun j => sReal a0 a1 z c (keyLo j))
  obtain ⟨m1, hm1⟩ := shift1_coe (fun j => sReal a0 a1 z c (keyLo j)) (fun j => sReal a0 a1 z c (keyHi j))
  obtain ⟨M, hM⟩ := bot_max_fold_coe (n := 2048) (by norm_num) (sReal a0 a1 z c)
  unfold onlineRow plainRow
  rw [hm0, hm1, hM]
  exact online_eq_softmax (sReal a0 a1 z c) a2 m0 m1 M

end Cert.Attn

end
-- ==== Proof.Inputs.lean ====
/-
  The input blocks, read entry by entry off the argument arrays.

  Before the region the host reshapes the three [2, 16, 2048, 64] float arguments to [32, 2048, 64] (batch and head folded
  into one axis: `bh = 16·b + h`) and the [2, 2048] mask to [2, 1, 2048]. At the even point `2·bh` the query window holds
  rows `bh` of the query, the key and value windows hold keys 0..1023 of batch-head `bh`, and the mask window holds mask
  entries 0..1023 of batch `b`; at the odd point `2·bh + 1` the key, value and mask windows hold keys 1024..2047.
-/
import proofs.«137208_j5927054868632_2_alg».proof.Proof.Blocks
import proofs.«137208_j5927054868632_2_alg».proof.Proof.Softmax
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Inputs

open Cert.KernelIdeal Cert.KernelIdeal.Gen Cert.KernelIdeal.Blocks Cert.Attn

variable {F : FTy → Type} [FloatOps F]
variable (m : (ℓ : Loc nD τ sig) → Buf (Elt F) ℓ)

/-- Batch `b` and head `h` folded into one batch-head index. -/
def bhOf (b : Fin 2) (h : Fin 16) : Fin 32 := ⟨16 * b.val + h.val, by omega⟩

/-! ## The host's reshapes, read at an index -/

/-- Folding batch and head: the [32, 2048, 64] reshape at `(16·b + h, r, e)` is the [2, 16, 2048, 64] array at `(b, h, r, e)`. -/
theorem fold_apply {α : Type} (x : S2x16x2048x64.Idx → α) (b : Fin 2) (h : Fin 16) (r : Fin 2048) (e : Fin 64) :
    shapeCast S32x2048x64 x shapeCasts_S2x16x2048x64_S32x2048x64 (ix3 (bhOf b h) r e) = x (ix4 b h r e) := by
  refine shapeCast_apply x _ _ _ ?_
  rw [Shape.rowMajor_val_four, Shape.rowMajor_val_three]
  show ((b.val * 16 + h.val) * 2048 + r.val) * 64 + e.val = ((16 * b.val + h.val) * 2048 + r.val) * 64 + e.val
  omega

/-- The mask's reshape: the [2, 1, 2048] array at `(b, 0, j)` is the [2, 2048] mask at `(b, j)`. -/
theorem maskFold_apply {α : Type} (x : S2x2048.Idx → α) (b : Fin 2) (j : Fin 2048) :
    shapeCast S2x1x2048 x shapeCasts_S2x2048_S2x1x2048 (ix3 b 0 j) = x (ix2 b j) := by
  refine shapeCast_apply x _ _ _ ?_
  rw [Shape.rowMajor_val_two, Shape.rowMajor_val_three]
  show b.val * 2048 + j.val = (b.val * 1 + 0) * 2048 + j.val
  omega

/-! ## The arrays the region finds -/

/-- The query window's array is the first argument reshaped to [32, 2048, 64]. -/
theorem V_v0 (c : Dev nD) : (V m c main_v0 : S32x2048x64.Idx → Elt F .f32)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- The key window's array is the second argument reshaped to [32, 2048, 64]. -/
theorem V_v1 (c : Dev nD) : (V m c main_v1 : S32x2048x64.Idx → Elt F .f32)
    = shapeCast S32x2048x64 (m ((c : Thread nD τ).loc main_arg1)) shapeCasts_S2x16x2048x64_S32x2048x64 := by
  show StableHlo.after hostOps0 (fun b => m (c, b)) (Proc.devRef .tc main_v1) = _
  after_results
  rfl

/-- The value window's array is the third argument reshaped to [32, 2048, 64]. -/
theorem V_v2 (c : Dev nD) : (V m c main_v2 : S32x2048x64.Idx → Elt F .f32)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- The mask window's array is the mask reshaped to [2, 1, 2048]. -/
theorem V_v3 (c : Dev nD) : (V m c main_v3 : S2x1x2048.Idx → Elt F .i32)
    = shapeCast S2x1x2048 (m ((c : Thread nD τ).loc main_arg3)) shapeCasts_S2x2048_S2x1x2048 := by
  show StableHlo.after hostOps0 (fun b => m (c, b)) (Proc.devRef .tc main_v3) = _
  after_results
  rfl

/-! ## The windows' block indices -/

/-- The query window's block index at point `t` is `(t / 2, 0, 0)`: decided over the grid. -/
theorem widx0 : ∀ t : Fin cfg0.N, win0_0.index t (0 : Fin 3) = t.val / 2 ∧ win0_0.index t (1 : Fin 3) = 0
    ∧ win0_0.index t (2 : Fin 3) = 0 :=
  (by decide +kernel : ∀ t : Fin grid0.N, _)

/-- The key window's block index at point `t` is `(t / 2, t % 2, 0)`: decided over the grid. -/
theorem widx1 : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, _)

/-- The value window's block index at point `t` is `(t / 2, t % 2, 0)`: decided over the grid. -/
theorem widx2 : ∀ t : Fin cfg0.N, win0_2.index t (0 : Fin 3) = t.val / 2 ∧ win0_2.index t (1 : Fin 3) = t.val % 2
    ∧ win0_2.index t (2 : Fin 3) = 0 :=
  (by decide +kernel : ∀ t : Fin grid0.N, _)

/-- The mask window's block index at point `t` is `(t / 32, 0, t % 2)`: decided over the grid. -/
theorem widx3 : ∀ t : Fin cfg0.N, win0_3.index t (0 : Fin 3) = t.val / 32 ∧ win0_3.index t (1 : Fin 3) = 0
    ∧ win0_3.index t (2 : Fin 3) = t.val % 2 :=
  (by decide +kernel : ∀ t : Fin grid0.N, _)

/-! ## A block entry is an array entry -/

/-- The query block at point `t`, entry `(0, r, e)`, is the array's entry `(t / 2, r, e)`. -/
theorem blk0_apply (c : Dev nD) (t : Fin cfg0.N) (bh : Fin 32) (hbh : bh.val = t.val / 2) (r : Fin 2048) (e : Fin 64) :
    (iblk m c 0 t : Vec F S1x2048x64 .f32) (ix3 0 r e) = (V m c main_v0 : S32x2048x64.Idx → Elt F .f32) (ix3 bh r e) := by
  obtain ⟨e0, e1, e2⟩ := widx0 t
  unfold iblk
  rw [View.read_apply]
  show (V m c main_v0 : S32x2048x64.Idx → Elt F .f32) (((cfg0.win 0).blk t).view.emb (ix3 0 r e)) = _
  refine congrArg (V m c main_v0 : S32x2048x64.Idx → Elt F .f32) (funext fun a => Fin.ext ?_)
  match a with
  | ⟨0, _⟩ => show win0_0.index t (0 : Fin 3) * 1 + 1 * 0 = bh.val; rw [e0]; omega
  | ⟨1, _⟩ => show win0_0.index t (1 : Fin 3) * 2048 + 1 * r.val = r.val; rw [e1]; omega
  | ⟨2, _⟩ => show win0_0.index t (2 : Fin 3) * 64 + 1 * e.val = e.val; rw [e2]; omega

/-- The key block at point `t`, entry `(0, j, e)`, is the array's entry `(t / 2, 1024·(t % 2) + j, e)`. -/
theorem blk1_apply (c : Dev nD) (t : Fin cfg0.N) (bh : Fin 32) (hbh : bh.val = t.val / 2) (j : Fin 1024) (k : Fin 2048)
    (hk : k.val = 1024 * (t.val % 2) + j.val) (e : Fin 64) :
    (iblk m c 1 t : Vec F S1x1024x64 .f32) (ix3 0 j e) = (V m c main_v1 : S32x2048x64.Idx → Elt F .f32) (ix3 bh k e) := by
  obtain ⟨e0, e1, e2⟩ := widx1 t
  unfold iblk
  rw [View.read_apply]
  show (V m c main_v1 : S32x2048x64.Idx → Elt F .f32) (((cfg0.win 1).blk t).view.emb (ix3 0 j e)) = _
  refine congrArg (V m c main_v1 : S32x2048x64.Idx → Elt F .f32) (funext fun a => Fin.ext ?_)
  match a with
  | ⟨0, _⟩ => show win0_1.index t (0 : Fin 3) * 1 + 1 * 0 = bh.val; rw [e0]; omega
  | ⟨1, _⟩ => show win0_1.index t (1 : Fin 3) * 1024 + 1 * j.val = k.val; rw [e1]; omega
  | ⟨2, _⟩ => show win0_1.index t (2 : Fin 3) * 64 + 1 * e.val = e.val; rw [e2]; omega

/-- The value block at point `t`, entry `(0, j, d)`, is the array's entry `(t / 2, 1024·(t % 2) + j, d)`. -/
theorem blk2_apply (c : Dev nD) (t : Fin cfg0.N) (bh : Fin 32) (hbh : bh.val = t.val / 2) (j : Fin 1024) (k : Fin 2048)
    (hk : k.val = 1024 * (t.val % 2) + j.val) (d : Fin 64) :
    (iblk m c 2 t : Vec F S1x1024x64 .f32) (ix3 0 j d) = (V m c main_v2 : S32x2048x64.Idx → Elt F .f32) (ix3 bh k d) := by
  obtain ⟨e0, e1, e2⟩ := widx2 t
  unfold iblk
  rw [View.read_apply]
  show (V m c main_v2 : S32x2048x64.Idx → Elt F .f32) (((cfg0.win 2).blk t).view.emb (ix3 0 j d)) = _
  refine congrArg (V m c main_v2 : S32x2048x64.Idx → Elt F .f32) (funext fun a => Fin.ext ?_)
  match a with
  | ⟨0, _⟩ => show win0_2.index t (0 : Fin 3) * 1 + 1 * 0 = bh.val; rw [e0]; omega
  | ⟨1, _⟩ => show win0_2.index t (1 : Fin 3) * 1024 + 1 * j.val = k.val; rw [e1]; omega
  | ⟨2, _⟩ => show win0_2.index t (2 : Fin 3) * 64 + 1 * d.val = d.val; rw [e2]; omega

/-- The mask block at point `t`, entry `(0, 0, j)`, is the array's entry `(t / 32, 0, 1024·(t % 2) + j)`. -/
theorem blk3_apply (c : Dev nD) (t : Fin cfg0.N) (b : Fin 2) (hb : b.val = t.val / 32) (j : Fin 1024) (k : Fin 2048)
    (hk : k.val = 1024 * (t.val % 2) + j.val) :
    (iblk m c 3 t : Vec F S1x1x1024 .i32) (ix3 0 0 j) = (V m c main_v3 : S2x1x2048.Idx → Elt F .i32) (ix3 b 0 k) := by
  obtain ⟨e0, e1, e2⟩ := widx3 t
  unfold iblk
  rw [View.read_apply]
  show (V m c main_v3 : S2x1x2048.Idx → Elt F .i32) (((cfg0.win 3).blk t).view.emb (ix3 0 0 j)) = _
  refine congrArg (V m c main_v3 : S2x1x2048.Idx → Elt F .i32) (funext fun a => Fin.ext ?_)
  match a with
  | ⟨0, _⟩ => show win0_3.index t (0 : Fin 3) * 1 + 1 * 0 = b.val; rw [e0]; omega
  | ⟨1, _⟩ => show win0_3.index t (1 : Fin 3) * 1 + 1 * 0 = 0; rw [e1]
  | ⟨2, _⟩ => show win0_3.index t (2 : Fin 3) * 1024 + 1 * j.val = k.val; rw [e2]; omega

/-! ## The blocks at the two points of a batch-head -/

/-- The query window at the even point of batch-head `(b, h)`: entry `(r, e)` is the query's `(b, h, r, e)`. -/
theorem q_apply (c : Dev nD) (b : Fin 2) (h : Fin 16) (r : Fin 2048) (e : Fin 64) :
    (iblk m c 0 (tA (bhOf b h)) : Vec F S1x2048x64 .f32) (ix3 0 r e)
      = (m ((c : Thread nD τ).loc main_arg0) : S2x16x2048x64.Idx → Elt F .f32) (ix4 b h r e) := by
  refine (blk0_apply m c (tA (bhOf b h)) (bhOf b h) ?_ r e).trans
    ((congrFun (V_v0 m c) (ix3 (bhOf b h) r e)).trans (fold_apply _ b h r e))
  show 16 * b.val + h.val = 2 * (16 * b.val + h.val) / 2
  omega

/-- The key window at the even point: entry `(j, e)` is the key's `(b, h, j, e)` for the low half's key `j`. -/
theorem kLo_apply (c : Dev nD) (b : Fin 2) (h : Fin 16) (j : Fin 1024) (e : Fin 64) :
    (iblk m c 1 (tA (bhOf b h)) : Vec F S1x1024x64 .f32) (ix3 0 j e)
      = (m ((c : Thread nD τ).loc main_arg1) : S2x16x2048x64.Idx → Elt F .f32) (ix4 b h (keyLo j) e) := by
  refine (blk1_apply m c (tA (bhOf b h)) (bhOf b h) ?_ j (keyLo j) ?_ e).trans
    ((congrFun (V_v1 m c) (ix3 (bhOf b h) (keyLo j) e)).trans (fold_apply _ b h (keyLo j) e))
  · show 16 * b.val + h.val = 2 * (16 * b.val + h.val) / 2
    omega
  · show j.val = 1024 * (2 * (16 * b.val + h.val) % 2) + j.val
    omega

/-- The key window at the odd point: the high half's key `1024 + j`. -/
theorem kHi_apply (c : Dev nD) (b : Fin 2) (h : Fin 16) (j : Fin 1024) (e : Fin 64) :
    (iblk m c 1 (tB (bhOf b h)) : Vec F S1x1024x64 .f32) (ix3 0 j e)
      = (m ((c : Thread nD τ).loc main_arg1) : S2x16x2048x64.Idx → Elt F .f32) (ix4 b h (keyHi j) e) := by
  refine (blk1_apply m c (tB (bhOf b h)) (bhOf b h) ?_ j (keyHi j) ?_ e).trans
    ((congrFun (V_v1 m c) (ix3 (bhOf b h) (keyHi j) e)).trans (fold_apply _ b h (keyHi j) e))
  · show 16 * b.val + h.val = (2 * (16 * b.val + h.val) + 1) / 2
    omega
  · show 1024 + j.val = 1024 * ((2 * (16 * b.val + h.val) + 1) % 2) + j.val
    omega

/-- The value window at the even point: the low half's key `j`. -/
theorem vLo_apply (c : Dev nD) (b : Fin 2) (h : Fin 16) (j : Fin 1024) (d : Fin 64) :
    (iblk m c 2 (tA (bhOf b h)) : Vec F S1x1024x64 .f32) (ix3 0 j d)
      = (m ((c : Thread nD τ).loc main_arg2) : S2x16x2048x64.Idx → Elt F .f32) (ix4 b h (keyLo j) d) := by
  refine (blk2_apply m c (tA (bhOf b h)) (bhOf b h) ?_ j (keyLo j) ?_ d).trans
    ((congrFun (V_v2 m c) (ix3 (bhOf b h) (keyLo j) d)).trans (fold_apply _ b h (keyLo j) d))
  · show 16 * b.val + h.val = 2 * (16 * b.val + h.val) / 2
    omega
  · show j.val = 1024 * (2 * (16 * b.val + h.val) % 2) + j.val
    omega

/-- The value window at the odd point: the high half's key `1024 + j`. -/
theorem vHi_apply (c : Dev nD) (b : Fin 2) (h : Fin 16) (j : Fin 1024) (d : Fin 64) :
    (iblk m c 2 (tB (bhOf b h)) : Vec F S1x1024x64 .f32) (ix3 0 j d)
      = (m ((c : Thread nD τ).loc main_arg2) : S2x16x2048x64.Idx → Elt F .f32) (ix4 b h (keyHi j) d) := by
  refine (blk2_apply m c (tB (bhOf b h)) (bhOf b h) ?_ j (keyHi j) ?_ d).trans
    ((congrFun (V_v2 m c) (ix3 (bhOf b h) (keyHi j) d)).trans (fold_apply _ b h (keyHi j) d))
  · show 16 * b.val + h.val = (2 * (16 * b.val + h.val) + 1) / 2
    omega
  · show 1024 + j.val = 1024 * ((2 * (16 * b.val + h.val) + 1) % 2) + j.val
    omega

/-- The mask window at the even point: the mask's `(b, j)` for the low half's key `j`. -/
theorem mkLo_apply (c : Dev nD) (b : Fin 2) (h : Fin 16) (j : Fin 1024) :
    (iblk m c 3 (tA (bhOf b h)) : Vec F S1x1x1024 .i32) (ix3 0 0 j)
      = (m ((c : Thread nD τ).loc main_arg3) : S2x2048.Idx → Elt F .i32) (ix2 b (keyLo j)) := by
  refine (blk3_apply m c (tA (bhOf b h)) b ?_ j (keyLo j) ?_).trans
    ((congrFun (V_v3 m c) (ix3 b 0 (keyLo j))).trans (maskFold_apply _ b (keyLo j)))
  · show b.val = 2 * (16 * b.val + h.val) / 32
    have := h.isLt
    omega
  · show j.val = 1024 * (2 * (16 * b.val + h.val) % 2) + j.val
    omega

/-- The mask window at the odd point: the high half's key `1024 + j`. -/
theorem mkHi_apply (c : Dev nD) (b : Fin 2) (h : Fin 16) (j : Fin 1024) :
    (iblk m c 3 (tB (bhOf b h)) : Vec F S1x1x1024 .i32) (ix3 0 0 j)
      = (m ((c : Thread nD τ).loc main_arg3) : S2x2048.Idx → Elt F .i32) (ix2 b (keyHi j)) := by
  refine (blk3_apply m c (tB (bhOf b h)) b ?_ j (keyHi j) ?_).trans
    ((congrFun (V_v3 m c) (ix3 b 0 (keyHi j))).trans (maskFold_apply _ b (keyHi j)))
  · show b.val = (2 * (16 * b.val + h.val) + 1) / 32
    have := h.isLt
    omega
  · show 1024 + j.val = 1024 * ((2 * (16 * b.val + h.val) + 1) % 2) + j.val
    omega

/-- The result's reshape back to [2, 16, 2048, 64] reads rows `16·b + h` of the [32, 2048, 64] array. -/
theorem unfold_apply {α : Type} (y : S32x2048x64.Idx → α) (b : Fin 2) (h : Fin 16) (r : Fin 2048) (d : Fin 64) :
    shapeCast S2x16x2048x64 y shapeCasts_S32x2048x64_S2x16x2048x64 (ix4 b h r d) = y (ix3 (bhOf b h) r d) := by
  refine shapeCast_apply y _ _ _ ?_
  rw [Shape.rowMajor_val_three, Shape.rowMajor_val_four]
  show ((16 * b.val + h.val) * 2048 + r.val) * 64 + d.val = ((b.val * 16 + h.val) * 2048 + r.val) * 64 + d.val
  omega

end Cert.KernelIdeal.Inputs

end
-- ==== Proof.KValue.lean ====
/-
  The kernel's output array, entry by entry, on the extended reals: entry `(16·b + h, r, d)` is the ONLINE form of query
  row `r` of batch `b`, head `h`, at output column `d` — the first key tile folded into the reset state, the second
  folded into that, numerator over denominator — with the scores spelled as the kernel spells them over the argument
  arrays.
-/
import proofs.«137208_j5927054868632_2_alg».proof.Proof.Blocks
import proofs.«137208_j5927054868632_2_alg».proof.Proof.Tile
import proofs.«137208_j5927054868632_2_alg».proof.Proof.Row
import proofs.«137208_j5927054868632_2_alg».proof.Proof.Inputs

set_option maxRecDepth 16384

noncomputable section

open Idealize.ShloMosaic Idealize.ShloMosaic.TcCoe Idealize.SL.Sem
open Idealize.ShloMosaic.ValueIdx

namespace Cert.KernelIdeal.KValue

open Cert.KernelIdeal Cert.KernelIdeal.Gen Cert.KernelIdeal.Pieces Cert.KernelIdeal.Blocks Cert.KernelIdeal.Inputs Cert.Attn

/-- Two tiles folded one after the other, then divided: the online form over the two tiles' scores and value blocks
    (stated over arbitrary blocks). -/
theorem out_generic (q : Vec Ideal S2048x64 .bf16) (k0 k1 v0 v1 : Vec Ideal S1x1024x64 .f32)
    (mk0 mk1 : Vec Ideal S1x1x1024 .i32) (r : Fin 2048) (d : Fin 64) :
    k0_pay4 (F := Ideal)
        (accNew q k1 v1 mk1 (mNew q k0 mk0 (k0_pay5 (F := Ideal))) (accNew q k0 v0 mk0 (k0_pay5 (F := Ideal)) (k0_pay7 (F := Ideal))))
        (lNew q k1 mk1 (mNew q k0 mk0 (k0_pay5 (F := Ideal))) (lNew q k0 mk0 (k0_pay5 (F := Ideal)) (k0_pay6 (F := Ideal))))
        (ix3 0 r d)
      = onlineRow (fun j => Tile.score q k0 mk0 r j) (fun j => Tile.score q k1 mk1 r j)
          (fun j => v0 (ix3 0 j d)) (fun j => v1 (ix3 0 j d)) := by
  rw [Tile.pay4_apply, Tile.accNew_apply, Tile.lNew_apply, Tile.accNew_apply, Tile.lNew_apply]
  simp only [Tile.rowMax, Tile.mNew_apply, Tile.pay5_apply, Tile.pay6_apply, Tile.pay7_apply, onlineRow, shift0, shift1]

/-- A tile's score over a cached query block and key and mask blocks that read the argument rows is the kernel's
    spelling of the score of the key the tile's position `j` stands for. -/
theorem score_generic (qb : Vec Ideal S1x2048x64 .f32) (k : Vec Ideal S1x1024x64 .f32) (mk : Vec Ideal S1x1x1024 .i32)
    (x0r : Fin 64 → EReal) (x1 : Fin 2048 → Fin 64 → EReal) (z : Fin 2048 → ℤ) (key : Fin 1024 → Fin 2048) (r : Fin 2048)
    (hq : ∀ e, qb (ix3 0 r e) = x0r e) (hk : ∀ j e, k (ix3 0 j e) = x1 (key j) e)
    (hm : ∀ j, (mk (ix3 0 0 j)).toInt = z (key j)) (j : Fin 1024) :
    Tile.score (k0_pay8 (F := Ideal) qb) k mk r j = kScore x0r x1 z (key j) := by
  unfold Tile.score kScore
  simp only [Tile.pay8_apply, hq, hk, hm]

variable (m : (ℓ : Loc nD τ sig) → Buf (Elt Ideal) ℓ)

/-- Query row `r` of batch `b`, head `h`. -/
abbrev qRow (c : Dev nD) (b : Fin 2) (h : Fin 16) (r : Fin 2048) : Fin 64 → EReal :=
  fun e => (m ((c : Thread nD τ).loc main_arg0) : S2x16x2048x64.Idx → EReal) (ix4 b h r e)
/-- The key rows of batch `b`, head `h`. -/
abbrev kRows (c : Dev nD) (b : Fin 2) (h : Fin 16) : Fin 2048 → Fin 64 → EReal :=
  fun k e => (m ((c : Thread nD τ).loc main_arg1) : S2x16x2048x64.Idx → EReal) (ix4 b h k e)
/-- The mask entries of batch `b`, as integers. -/
abbrev maskRow (c : Dev nD) (b : Fin 2) : Fin 2048 → ℤ :=
  fun k => ((m ((c : Thread nD τ).loc main_arg3) : S2x2048.Idx → BitVec 32) (ix2 b k)).toInt
/-- Column `d` of the value rows of batch `b`, head `h`. -/
abbrev vCol (c : Dev nD) (b : Fin 2) (h : Fin 16) (d : Fin 64) : Fin 2048 → EReal :=
  fun k => (m ((c : Thread nD τ).loc main_arg2) : S2x16x2048x64.Idx → EReal) (ix4 b h k d)

/-- What the odd point `t` stores, on the state the even point `s` left, is the online form over the two points'
    key, value and mask blocks. -/
theorem outAt_apply (c : Dev nD) (s t : Fin cfg0.N) (r : Fin 2048) (d : Fin 64) :
    outAt m c s t (ix3 0 r d)
      = onlineRow (fun j => Tile.score (k0_pay8 (F := Ideal) (iblk m c 0 s)) (iblk m c 1 s) (iblk m c 3 s) r j)
          (fun j => Tile.score (k0_pay8 (F := Ideal) (iblk m c 0 s)) (iblk m c 1 t) (iblk m c 3 t) r j)
          (fun j => (iblk m c 2 s : Vec Ideal S1x1024x64 .f32) (ix3 0 j d))
          (fun j => (iblk m c 2 t : Vec Ideal S1x1024x64 .f32) (ix3 0 j d)) := by
  unfold Blocks.outAt Blocks.stM Blocks.stL Blocks.stAcc Blocks.stQ
  exact out_generic (k0_pay8 (F := Ideal) (iblk m c 0 s)) (iblk m c 1 s) (iblk m c 1 t) (iblk m c 2 s) (iblk m c 2 t)
    (iblk m c 3 s) (iblk m c 3 t) r d

/-- Entry `(16·b + h, r, d)` of the output array is the online form of query row `r` over the argument arrays. -/
theorem G_apply (c : Dev nD) (b : Fin 2) (h : Fin 16) (r : Fin 2048) (d : Fin 64) :
    G m c (ix3 (bhOf b h) r d)
      = onlineRow (fun j => kScore (qRow m c b h r) (kRows m c b h) (maskRow m c b) (keyLo j))
          (fun j => kScore (qRow m c b h r) (kRows m c b h) (maskRow m c b) (keyHi j))
          (fun j => vCol m c b h d (keyLo j)) (fun j => vCol m c b h d (keyHi j)) := by
  have hLo : (fun j => Tile.score (k0_pay8 (F := Ideal) (iblk m c 0 (tA (bhOf b h)))) (iblk m c 1 (tA (bhOf b h))) (iblk m c 3 (tA (bhOf b h))) r j)
      = fun j => kScore (qRow m c b h r) (kRows m c b h) (maskRow m c b) (keyLo j) :=
    funext fun j => score_generic (iblk m c 0 (tA (bhOf b h))) (iblk m c 1 (tA (bhOf b h))) (iblk m c 3 (tA (bhOf b h)))
      (qRow m c b h r) (kRows m c b h) (maskRow m c b) keyLo r (fun e => q_apply m c b h r e)
      (fun j e => kLo_apply m c b h j e) (fun j => congrArg BitVec.toInt (mkLo_apply m c b h j)) j
  have hHi : (fun j => Tile.score (k0_pay8 (F := Ideal) (iblk m c 0 (tA (bhOf b h)))) (iblk m c 1 (tB (bhOf b h))) (iblk m c 3 (tB (bhOf b h))) r j)
      = fun j => kScore (qRow m c b h r) (kRows m c b h) (maskRow m c b) (keyHi j) :=
    funext fun j => score_generic (iblk m c 0 (tA (bhOf b h))) (iblk m c 1 (tB (bhOf b h))) (iblk m c 3 (tB (bhOf b h)))
      (qRow m c b h r) (kRows m c b h) (maskRow m c b) keyHi r (fun e => q_apply m c b h r e)
      (fun j e => kHi_apply m c b h j e) (fun j => congrArg BitVec.toInt (mkHi_apply m c b h j)) j
  have hvLo : (fun j => (iblk m c 2 (tA (bhOf b h)) : Vec Ideal S1x1024x64 .f32) (ix3 0 j d))
      = fun j => vCol m c b h d (keyLo j) := funext fun j => vLo_apply m c b h j d
  have hvHi : (fun j => (iblk m c 2 (tB (bhOf b h)) : Vec Ideal S1x1024x64 .f32) (ix3 0 j d))
      = fun j => vCol m c b h d (keyHi j) := funext fun j => vHi_apply m c b h j d
  refine (outAt_apply m c (tA (bhOf b h)) (tB (bhOf b h)) r d).trans ?_
  rw [hLo, hHi, hvLo, hvHi]

end Cert.KernelIdeal.KValue

end
-- ==== Proof.KRun.lean ====
/-
  The kernel's run, re-posted with its result named: after the region the host reshapes the [32, 2048, 64] output array
  back to [2, 16, 2048, 64]; the output array is `G` (batch-head by batch-head, what the odd point stored), so the result
  is that reshape of `G`, and the four argument arrays end as they began.
-/
import proofs.«137208_j5927054868632_2_alg».proof.Proof.Blocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Blocks

variable {F : FTy → Type} [FloatOps F]
variable (m : (ℓ : Loc nD τ sig) → Buf (Elt F) ℓ) (ρ : Dev nD → PrngReg)

/-- The result array as the run leaves it: the output array `G`, reshaped. -/
def result (c : Dev nD) : Buf (Elt F) ((c : Thread nD τ).loc main_v5) :=
  shapeCast S2x16x2048x64 (G m c) shapeCasts_S32x2048x64_S2x16x2048x64

/-- The host operation after the region reshapes the output array as the region left it. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw : Pipeline.withArrays spec0 c (V0 m c) (fun w => (dats m 0 c).arrAt w cfg0.N)
      (Proc.devRef .tc (Pipeline.arrRef spec0 4)) = G m c :=
    (Pipeline.withArrays_arr spec0 launch0.win.arr_inj c (V0 m c) (fun w => (dats m 0 c).arrAt w cfg0.N) 4).trans (final4 m c)
  rw [show Pipeline.withArrays (cfgs 0).spec c (V0 m c) (fun w => (dats m 0 c).arrAt w (cfgs 0).N)
      (Proc.tc.devRef main_v4) = G m c from hw]
  rfl

/-- THE RUN, READ: every weakly fair execution terminates with the result array at `result` and the four arguments
    unchanged. -/
theorem run : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefRead.lean ====
/-
  The reference, read entry by entry on the extended reals: plain softmax attention.

  For batch `b`, head `h`, query row `r` and key `j` the masked score is
  `(∑ e, Q[b,h,r,e] * K[b,h,j,e]) / sqrt 64 + (one - mask[b,j]) * neg`; the row's shift is the maximum of its 2048 scores
  (joined with `-∞`); and the result at column `d` is `∑ j, (exp (s j - shift) / (0 + ∑ j', exp (s j' - shift))) * V[b,h,j,d]`.
-/
import proofs.«137208_j5927054868632_2_alg».proof.Proof.Gen.ReferenceIdeal.Read
import Idealize.ShloMosaic.PureOps.Ideal.Laws
import Idealize.ShloMosaic.Lib.ValueIdx

noncomputable section

open Idealize.ShloMosaic Idealize.ShloMosaic.TcCoe
open Idealize.ShloMosaic.ValueIdx

namespace Cert.ReferenceIdeal.RefValue

open Cert.ReferenceIdeal Cert.ReferenceIdeal.Gen Cert.ReferenceIdeal.Read

/-- The reference's masked, scaled score of query row `r` against key `j`, in batch `b` and head `h`. -/
def score (x0 x1 : (⟨S2x16x2048x64, .f32⟩ : BufTy).Contents (Elt Ideal)) (x3 : (⟨S2x2048, .i32⟩ : BufTy).Contents (Elt Ideal))
    (b : Fin 2) (h : Fin 16) (r j : Fin 2048) : EReal :=
  Ideal.div (∑ e : Fin 64, x0 (ix4 b h r e) * x1 (ix4 b h j e)) (Ideal.sqrt (Ideal.ofBits .f32 0x42800000#32))
    + (Ideal.ofBits .f32 0x3F800000#32 - (((x3 (ix2 b j)).toInt : ℝ) : EReal)) * Ideal.ofBits .f32 0xFF7FFFFF#32

/-- The reference's shift of row `r`: the maximum it subtracts before exponentiating. -/
def rowMax (x0 x1 : (⟨S2x16x2048x64, .f32⟩ : BufTy).Contents (Elt Ideal)) (x3 : (⟨S2x2048, .i32⟩ : BufTy).Contents (Elt Ideal))
    (b : Fin 2) (h : Fin 16) (r : Fin 2048) : EReal :=
  val_main_v14 (F := Ideal) x0 x1 x3 (ix3 b h r)

/-- At `(b, h, r, j)` the score's contraction reads the query at `(b, h, r, e)`. -/
theorem lidx_v0_ix4 (b : Fin 2) (h : Fin 16) (r j : Fin 2048) (e : Fin 64) :
    lidx_main_v0 (ix4 b h r j) e = ix4 b h r e :=
  funext fun a => Fin.ext (by match a with | ⟨0, _⟩ => rfl | ⟨1, _⟩ => rfl | ⟨2, _⟩ => rfl | ⟨3, _⟩ => rfl)

/-- At `(b, h, r, j)` the score's contraction reads the key at `(b, h, j, e)`. -/
theorem ridx_v0_ix4 (b : Fin 2) (h : Fin 16) (r j : Fin 2048) (e : Fin 64) :
    ridx_main_v0 (ix4 b h r j) e = ix4 b h j e :=
  funext fun a => Fin.ext (by match a with | ⟨0, _⟩ => rfl | ⟨1, _⟩ => rfl | ⟨2, _⟩ => rfl | ⟨3, _⟩ => rfl)

/-- At `(b, h, r, j)` the two broadcasts of the mask term read the mask at `(b, j)`. -/
theorem idx_v7_v10_ix4 (b : Fin 2) (h : Fin 16) (r j : Fin 2048) :
    idx_main_v7 (idx_main_v10 (ix4 b h r j)) = ix2 b j :=
  funext fun a => Fin.ext (by match a with | ⟨0, _⟩ => rfl | ⟨1, _⟩ => rfl)

/-- The masked score at `(b, h, r, j)`: the scaled dot product of query row `r` and key `j` plus the mask term of key `j`. -/
theorem v11_apply (x0 x1 : (⟨S2x16x2048x64, .f32⟩ : BufTy).Contents (Elt Ideal)) (x3 : (⟨S2x2048, .i32⟩ : BufTy).Contents (Elt Ideal))
    (b : Fin 2) (h : Fin 16) (r j : Fin 2048) :
    val_main_v11 (F := Ideal) x0 x1 x3 (ix4 b h r j) = score x0 x1 x3 b h r j := by
  rw [val_main_v11_apply, val_main_v3_apply, val_main_v0_apply, val_main_v2_apply, val_main_v1_apply, val_main_cst_apply,
    val_main_v10_apply, val_main_v9_apply, val_main_v7_apply, val_main_v6_apply, val_main_v5_apply, val_main_cst_0_apply,
    val_main_v4_apply, val_main_v8_apply, val_main_cst_1_apply]
  simp only [lidx_v0_ix4, ridx_v0_ix4, idx_v7_v10_ix4, Ideal.hostDivf_def, Ideal.hostUnary_sqrt_def, Ideal.addf_def,
    Ideal.subf_def, Ideal.mulf_def, Ideal.ofBits_def]
  rfl

/-- The `f32` bit pattern `0xFF800000` denotes `⊥`. -/
theorem ofBits_neg_inf_eq_bot : Ideal.ofBits .f32 0xFF800000#32 = (⊥ : EReal) := by simp [Ideal.ofBits, Ideal.ieee]

/-- The reduced index `(b, h, r)` with coordinate `k` of the last axis put back is `(b, h, r, k)`. -/
theorem lift_ix3 (hr : S2x16x2048x2048.Reduces [3] S2x16x2048) (b : Fin 2) (h : Fin 16) (r k : Fin 2048) :
    hr.lift (ix3 b h r) k = ix4 b h r k :=
  funext fun a => Fin.ext (by match a with | ⟨0, _⟩ => rfl | ⟨1, _⟩ => rfl | ⟨2, _⟩ => rfl | ⟨3, _⟩ => rfl)

/-- The reduction by `max` over the key axis, from `-∞`, at row `(b, h, r)`: the fold of `max` over the row's scores. -/
theorem v12_apply (x0 x1 : (⟨S2x16x2048x64, .f32⟩ : BufTy).Contents (Elt Ideal)) (x3 : (⟨S2x2048, .i32⟩ : BufTy).Contents (Elt Ideal))
    (b : Fin 2) (h : Fin 16) (r : Fin 2048) :
    val_main_v12 (F := Ideal) x0 x1 x3 (ix3 b h r)
      = (Finset.univ : Finset (Fin 2048)).fold max (⊥ : EReal) (fun j => score x0 x1 x3 b h r j) := by
  have hr : S2x16x2048x2048.Reduces [3] S2x16x2048 := by decide
  unfold val_main_v12
  rw [Host.reduce_eq_fold_single FloatOps.maximumf _ _ _ hr _ (ix3 b h r), val_main_cst_2_apply]
  have hf : (val_main_v11 (F := Ideal) x0 x1 x3 ∘ hr.lift (ix3 b h r)) = fun j : Fin 2048 => score x0 x1 x3 b h r j :=
    funext fun k => (congrArg (val_main_v11 (F := Ideal) x0 x1 x3) (lift_ix3 hr b h r k)).trans (v11_apply x0 x1 x3 b h r k)
  rw [hf, Ideal.ofBits_def, ofBits_neg_inf_eq_bot]
  rfl

/-- The shift is the fold of `max` over the row's scores, joined with `-∞` twice (the reduction's initial value and the
    guard the softmax adds). -/
theorem rowMax_eq (x0 x1 : (⟨S2x16x2048x64, .f32⟩ : BufTy).Contents (Elt Ideal)) (x3 : (⟨S2x2048, .i32⟩ : BufTy).Contents (Elt Ideal))
    (b : Fin 2) (h : Fin 16) (r : Fin 2048) :
    rowMax x0 x1 x3 b h r
      = max (⊥ : EReal) ((Finset.univ : Finset (Fin 2048)).fold max (⊥ : EReal) (fun j => score x0 x1 x3 b h r j)) := by
  unfold rowMax
  rw [val_main_v14_apply, val_main_v13_apply, val_main_cst_3_apply, v12_apply, Ideal.ofBits_def, ofBits_neg_inf_eq_bot]
  rfl

/-- At `(b, h, r, j)` the two broadcasts of a per-row value read it at row `(b, h, r)` (the row maximum's pair). -/
theorem idx_v15_v16_ix4 (b : Fin 2) (h : Fin 16) (r j : Fin 2048) :
    idx_main_v15 (idx_main_v16 (ix4 b h r j)) = ix3 b h r :=
  funext fun a => Fin.ext (by match a with | ⟨0, _⟩ => rfl | ⟨1, _⟩ => rfl | ⟨2, _⟩ => rfl)

/-- At `(b, h, r, j)` the two broadcasts of a per-row value read it at row `(b, h, r)` (the row sum's pair). -/
theorem idx_v20_v21_ix4 (b : Fin 2) (h : Fin 16) (r j : Fin 2048) :
    idx_main_v20 (idx_main_v21 (ix4 b h r j)) = ix3 b h r :=
  funext fun a => Fin.ext (by match a with | ⟨0, _⟩ => rfl | ⟨1, _⟩ => rfl | ⟨2, _⟩ => rfl)

/-- The row sum at `(b, h, r)` reads its `k`-th summand at `(b, h, r, k)`. -/
theorem idx_v19_ix3 (b : Fin 2) (h : Fin 16) (r k : Fin 2048) :
    idx_main_v19 (ix3 b h r) k = ix4 b h r k :=
  funext fun a => Fin.ext (by match a with | ⟨0, _⟩ => rfl | ⟨1, _⟩ => rfl | ⟨2, _⟩ => rfl | ⟨3, _⟩ => rfl)

/-- At `(b, h, r, d)` the last contraction reads the weight at `(b, h, r, k)`. -/
theorem lidx_v23_ix4 (b : Fin 2) (h : Fin 16) (r : Fin 2048) (d : Fin 64) (k : Fin 2048) :
    lidx_main_v23 (ix4 b h r d) k = ix4 b h r k :=
  funext fun a => Fin.ext (by match a with | ⟨0, _⟩ => rfl | ⟨1, _⟩ => rfl | ⟨2, _⟩ => rfl | ⟨3, _⟩ => rfl)

/-- At `(b, h, r, d)` the last contraction reads the value array at `(b, h, k, d)`. -/
theorem ridx_v23_ix4 (b : Fin 2) (h : Fin 16) (r : Fin 2048) (d : Fin 64) (k : Fin 2048) :
    ridx_main_v23 (ix4 b h r d) k = ix4 b h k d :=
  funext fun a => Fin.ext (by match a with | ⟨0, _⟩ => rfl | ⟨1, _⟩ => rfl | ⟨2, _⟩ => rfl | ⟨3, _⟩ => rfl)

/-- The exponential at `(b, h, r, j)`: `exp` of the score minus the row's shift. -/
theorem v18_apply (x0 x1 : (⟨S2x16x2048x64, .f32⟩ : BufTy).Contents (Elt Ideal)) (x3 : (⟨S2x2048, .i32⟩ : BufTy).Contents (Elt Ideal))
    (b : Fin 2) (h : Fin 16) (r j : Fin 2048) :
    val_main_v18 (F := Ideal) x0 x1 x3 (ix4 b h r j) = Ideal.exp (score x0 x1 x3 b h r j - rowMax x0 x1 x3 b h r) := by
  rw [val_main_v18_apply, val_main_v17_apply, v11_apply, val_main_v16_apply, val_main_v15_apply, idx_v15_v16_ix4,
    Ideal.hostUnary_exp_def, Ideal.subf_def]
  rfl

/-- The row sum at `(b, h, r)`: zero plus the sum of the row's exponentials. -/
theorem v19_apply (x0 x1 : (⟨S2x16x2048x64, .f32⟩ : BufTy).Contents (Elt Ideal)) (x3 : (⟨S2x2048, .i32⟩ : BufTy).Contents (Elt Ideal))
    (b : Fin 2) (h : Fin 16) (r : Fin 2048) :
    val_main_v19 (F := Ideal) x0 x1 x3 (ix3 b h r)
      = 0 + ∑ j' : Fin 2048, Ideal.exp (score x0 x1 x3 b h r j' - rowMax x0 x1 x3 b h r) := by
  rw [val_main_v19_apply, val_main_cst_4_apply, Ideal.ofBits_def, Ideal.ofBits_zero_f32]
  refine congrArg (0 + ·) (Finset.sum_congr rfl fun k _ => ?_)
  rw [idx_v19_ix3, v18_apply]

/-- The weight at `(b, h, r, j)`: the exponential divided by the row sum. -/
theorem v22_apply (x0 x1 : (⟨S2x16x2048x64, .f32⟩ : BufTy).Contents (Elt Ideal)) (x3 : (⟨S2x2048, .i32⟩ : BufTy).Contents (Elt Ideal))
    (b : Fin 2) (h : Fin 16) (r j : Fin 2048) :
    val_main_v22 (F := Ideal) x0 x1 x3 (ix4 b h r j)
      = Ideal.div (Ideal.exp (score x0 x1 x3 b h r j - rowMax x0 x1 x3 b h r))
          (0 + ∑ j' : Fin 2048, Ideal.exp (score x0 x1 x3 b h r j' - rowMax x0 x1 x3 b h r)) := by
  rw [val_main_v22_apply, v18_apply, val_main_v21_apply, val_main_v20_apply, idx_v20_v21_ix4, v19_apply, Ideal.hostDivf_def]

/-- The result at `(b, h, r, d)`: the weighted sum of the value array's column `d` over the keys. -/
theorem v23_apply (x0 x1 x2 : (⟨S2x16x2048x64, .f32⟩ : BufTy).Contents (Elt Ideal)) (x3 : (⟨S2x2048, .i32⟩ : BufTy).Contents (Elt Ideal))
    (b : Fin 2) (h : Fin 16) (r : Fin 2048) (d : Fin 64) :
    val_main_v23 (F := Ideal) x0 x1 x2 x3 (ix4 b h r d)
      = ∑ j : Fin 2048, Ideal.div (Ideal.exp (score x0 x1 x3 b h r j - rowMax x0 x1 x3 b h r))
            (0 + ∑ j' : Fin 2048, Ideal.exp (score x0 x1 x3 b h r j' - rowMax x0 x1 x3 b h r)) * x2 (ix4 b h j d) := by
  rw [val_main_v23_apply]
  refine Finset.sum_congr rfl fun k _ => ?_
  rw [lidx_v23_ix4, ridx_v23_ix4, v22_apply]

end Cert.ReferenceIdeal.RefValue

end
-- ==== Proof.RefRow.lean ====
/-
  The reference's result, entry by entry, on the extended reals: entry `(b, h, r, d)` is the PLAIN form of query row `r` of
  batch `b`, head `h`, at output column `d` — every score shifted by the row's maximum, exponentiated, normalized by the
  row's sum, and averaged against the value column — with the scores spelled as the reference spells them.
-/
import proofs.«137208_j5927054868632_2_alg».proof.Proof.RefRead
import proofs.«137208_j5927054868632_2_alg».proof.Proof.Row

noncomputable section

open Idealize.ShloMosaic Idealize.ShloMosaic.TcCoe
open Idealize.ShloMosaic.ValueIdx

namespace Cert.ReferenceIdeal.RefRow

open Cert.ReferenceIdeal Cert.ReferenceIdeal.Gen Cert.ReferenceIdeal.Read Cert.ReferenceIdeal.RefValue Cert.Attn

/-- The reference's result at `(b, h, r, d)` is the plain form of the row, at the row's own shift. -/
theorem ref_apply (x0 x1 x2 : (⟨S2x16x2048x64, .f32⟩ : BufTy).Contents (Elt Ideal))
    (x3 : (⟨S2x2048, .i32⟩ : BufTy).Contents (Elt Ideal)) (b : Fin 2) (h : Fin 16) (r : Fin 2048) (d : Fin 64) :
    val_main_v23 (F := Ideal) x0 x1 x2 x3 (ix4 b h r d)
      = plainRow
          (fun k => rScore (fun e => x0 (ix4 b h r e)) (fun k e => x1 (ix4 b h k e)) (fun k => (x3 (ix2 b k)).toInt) k)
          (fun k => x2 (ix4 b h k d))
          (max (⊥ : EReal) ((Finset.univ : Finset (Fin 2048)).fold max (⊥ : EReal)
            (fun k => rScore (fun e => x0 (ix4 b h r e)) (fun k e => x1 (ix4 b h k e)) (fun k => (x3 (ix2 b k)).toInt) k))) := by
  rw [v23_apply, rowMax_eq]
  rfl

end Cert.ReferenceIdeal.RefRow

end
-- ==== Proof.Finite.lean ====
/-
  The precondition read as a fact about entries: `finite_inputs` is the conjunction, over the three float arguments, of
  "every entry has absolute value below +∞". On the extended reals an entry `x` with `max x (-x) < ⊤` is neither `⊤` nor
  `⊥`, so it is a real number. Hence under the precondition every entry of the query, key and value arrays is a real.
-/
import proofs.«137208_j5927054868632_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn

open Idealize.ShloMosaic

/-- The `f32` bit pattern `0x7F800000` denotes `⊤`. -/
theorem ofBits_inf_eq_top : Ideal.ofBits .f32 0x7F800000#32 = (⊤ : EReal) := by simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Where the comparison `|x| < +∞` of one entry comes out 1, the entry is a real. -/
theorem real_of_cmp_abs_inf (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max (x : EReal) (-(x : EReal))) (Ideal.ofBits .f32 0x7F800000#32) = 1#1 := h
  rw [ofBits_inf_eq_top] at h'
  unfold Ideal.cmp at h'
  by_contra hn
  simp [hn] at h'

/-- Under the precondition every entry of each of the three float arguments is a real. -/
theorem real_of_finite [Cert.Pre_finite_inputs.Facts]
    (x0 x1 x2 : FVec Ideal Cert.Pre_finite_inputs.S2x16x2048x64 .f32) (x3 : IVec Cert.Pre_finite_inputs.S2x2048 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  -- the rank-0 result shape has one index, so each reduction over all four axes is the conjunction over every entry
  haveI : Subsingleton Cert.Pre_finite_inputs.S_.Idx := ⟨fun a b => funext fun d => d.elim0⟩
  -- the claim at that one index: a conjunction of the three reductions
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  refine ⟨fun i => ?_, fun i => ?_, fun i => ?_⟩
  · exact real_of_cmp_abs_inf _ (Host.reduce_andi_all _ _ _ _ _ h0' i)
  · exact real_of_cmp_abs_inf _ (Host.reduce_andi_all _ _ _ _ _ h1 i)
  · exact real_of_cmp_abs_inf _ (Host.reduce_andi_all _ _ _ _ _ h2 i)

end Cert.Attn

end
-- ==== Proof.Bridge.lean ====
/-
  The two results are one array. At entry `(b, h, r, d)` the kernel's result is the online form of query row `r` of batch
  `b`, head `h` (the output array is read through the host's reshape), the reference's is the plain form of the same
  row, and with real entries the two forms agree (`row_eq`). The entries are real under the precondition.
-/
import proofs.«137208_j5927054868632_2_alg».proof.Defs
import proofs.«137208_j5927054868632_2_alg».proof.Proof.KValue
import proofs.«137208_j5927054868632_2_alg».proof.Proof.KRun
import proofs.«137208_j5927054868632_2_alg».proof.Proof.RefRow
import proofs.«137208_j5927054868632_2_alg».proof.Proof.Finite
import proofs.«137208_j5927054868632_2_alg».proof.Proof.Gen.Pre_finite_inputs

set_option maxRecDepth 16384

noncomputable section

open Idealize.ShloMosaic Idealize.ShloMosaic.TcCoe Idealize.SL.Sem
open Idealize.ShloMosaic.ValueIdx

namespace Cert.KernelIdeal.Bridge

open Cert.KernelIdeal Cert.KernelIdeal.Gen Cert.KernelIdeal.Blocks Cert.KernelIdeal.Inputs Cert.Attn

variable (m : (ℓ : Loc nD τ sig) → Buf (Elt Ideal) ℓ)

/-- With real query, key and value entries, the kernel's result array is the reference's term of the same arguments. -/
theorem result_eq (c : Dev nD)
    (h0 : ∀ i, ∃ r : ℝ, (m ((c : Thread nD τ).loc main_arg0) : S2x16x2048x64.Idx → EReal) i = (r : EReal))
    (h1 : ∀ i, ∃ r : ℝ, (m ((c : Thread nD τ).loc main_arg1) : S2x16x2048x64.Idx → EReal) i = (r : EReal))
    (h2 : ∀ i, ∃ r : ℝ, (m ((c : Thread nD τ).loc main_arg2) : S2x16x2048x64.Idx → EReal) i = (r : EReal)) :
    (KRun.result m c : S2x16x2048x64.Idx → EReal)
      = Cert.ReferenceIdeal.Read.val_main_v23 (F := Ideal) (m ((c : Thread nD τ).loc main_arg0))
          (m ((c : Thread nD τ).loc main_arg1)) (m ((c : Thread nD τ).loc main_arg2)) (m ((c : Thread nD τ).loc main_arg3)) := by
  funext i
  obtain ⟨b, h, r, d, rfl⟩ : ∃ (b : Fin 2) (h : Fin 16) (r : Fin 2048) (d : Fin 64), i = ix4 b h r d :=
    ⟨i 0, i 1, i 2, i 3, eq_ix4 i⟩
  unfold KRun.result
  rw [unfold_apply, KValue.G_apply, Cert.ReferenceIdeal.RefRow.ref_apply]
  exact row_eq _ _ _ _ (fun e => h0 _) (fun k e => h1 _) (fun k => h2 _)

/-- The precondition makes every query, key and value entry real. -/
theorem real_of_pre (hpre : Cert.Pre_KernelIdeal m) (c : Dev nD) :
    (∀ i, ∃ r : ℝ, (m ((c : Thread nD τ).loc main_arg0) : S2x16x2048x64.Idx → EReal) i = (r : EReal))
    ∧ (∀ i, ∃ r : ℝ, (m ((c : Thread nD τ).loc main_arg1) : S2x16x2048x64.Idx → EReal) i = (r : EReal))
    ∧ (∀ i, ∃ r : ℝ, (m ((c : Thread nD τ).loc main_arg2) : S2x16x2048x64.Idx → EReal) i = (r : EReal)) :=
  real_of_finite _ _ _ _ (hpre c)

end Cert.KernelIdeal.Bridge

end
-- ==== Proof.lean ====
/-
  Attention with an additive pad mask, computed two ways, is one function on the extended reals.

  The kernel walks each batch-head's 2048 keys in two tiles of 1024 and keeps, per query row, a running maximum, a
  running sum of exponentials and a running weighted sum of value rows, rescaling the sums when the maximum grows (the
  online softmax); after the second tile it divides the weighted sum by the sum. The reference forms all 2048 scores of a
  row at once, subtracts their maximum, exponentiates, normalizes and averages the value rows. Both spell the score of
  query row `r` against key `k` as the dot product over 64 entries, scaled by 1/8 (the kernel multiplies by the float word
  of 1/8, the reference divides by the square root of 64), plus `(1 - mask k)` times the most negative finite float.
  With finite query, key and value entries every score is a real, every maximum is a real, and both forms are the
  softmax-weighted mean of the value column: the rescaling factor `exp (m₀ - m₁)` turns the first tile's terms
  `exp (s - m₀)` into `exp (s - m₁)`, and a common factor `exp (M - m₁)` cancels between numerator and denominator.
  The three frame claims are the generated runs; nothing was rewritten between the kernel and its idealization.
-/
import proofs.«137208_j5927054868632_2_alg».proof.Defs
import proofs.«137208_j5927054868632_2_alg».proof.Proof.Gen.Kernel
import proofs.«137208_j5927054868632_2_alg».proof.Proof.Gen.Kernel.Skeleton
import proofs.«137208_j5927054868632_2_alg».proof.Proof.Gen.Kernel.Launch
import proofs.«137208_j5927054868632_2_alg».proof.Proof.Gen.Kernel.Points
import proofs.«137208_j5927054868632_2_alg».proof.Proof.Gen.Kernel.Frame
import proofs.«137208_j5927054868632_2_alg».proof.Proof.Gen.KernelIdeal
import proofs.«137208_j5927054868632_2_alg».proof.Proof.Gen.KernelIdeal.Skeleton
import proofs.«137208_j5927054868632_2_alg».proof.Proof.Gen.KernelIdeal.Launch
import proofs.«137208_j5927054868632_2_alg».proof.Proof.Gen.KernelIdeal.Points
import proofs.«137208_j5927054868632_2_alg».proof.Proof.Gen.KernelIdeal.Frame
import proofs.«137208_j5927054868632_2_alg».proof.Proof.Gen.ReferenceIdeal
import proofs.«137208_j5927054868632_2_alg».proof.Proof.Gen.Pre_finite_inputs
import proofs.«137208_j5927054868632_2_alg».proof.Proof.Gen.ReferenceIdeal.Run
import proofs.«137208_j5927054868632_2_alg».proof.Proof.Gen.ReferenceIdeal.Read
import proofs.«137208_j5927054868632_2_alg».proof.Proof.Bridge
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run and end with the same result: the kernel's
    result array is the reference's term of the arguments, entry by entry, since under the precondition every query, key
    and value entry is real. -/
theorem algebraic : Cert.algebraic_KernelIdeal_ReferenceIdeal := by
  intro m ρ m' ρ' hpre hagree
  refine ⟨fun c => Cert.KernelIdeal.KRun.result m c, Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.KernelIdeal.Bridge.real_of_pre m hpre c
  rw [Cert.ReferenceIdeal.Read.val_main_v23_eq, (hagree c).1, (hagree c).2.1, (hagree c).2.2.1, (hagree c).2.2.2]
  exact (Cert.KernelIdeal.Bridge.result_eq m c h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
